-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S128x16x1024 : S_.BroadcastsInDim S128x16x1024 (![] : Fin 0 → Fin S128x16x1024.rank)
  reducesTo_S128x16x1024_S_d0_1_2 : S128x16x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S32x16x1024 .f32) (main_arg1 : FVec F S128x16x1024 .f32) (main_arg2 : FVec F S1024x2048 .f32) (main_arg3 : FVec F S1024 .f32) (main_arg4 : FVec F S1x1024 .f32) : IVec S_ 1 :=
  let main_v0 : FVec F S32x16x1024 .f32 := Host.absf main_arg0
  let main_cst : FVec F S_ .f32 := constant S_ .f32 0x7F800000#32
  let main_v1 : FVec F S32x16x1024 .f32 := broadcastInDim S32x16x1024 ![] bcast_S_S32x16x1024 main_cst
  let main_v2 : IVec S32x16x1024 1 := cmpf .olt main_v0 main_v1
  let main_c : IVec S_ 1 := constantI S_ 1 1#1
  let main_v3 : IVec S_ 1 := (fun x v => Host.reduce IntOp.andi x v reducesTo_S32x16x1024_S_d0_1_2 h_S_) main_v2 main_c
  let main_v4 : FVec F S128x16x1024 .f32 := Host.absf main_arg1
  let main_cst_0 : FVec F S_ .f32 := constant S_ .f32 0x7F800000#32
  let main_v5 : FVec F S128x16x1024 .f32 := broadcastInDim S128x16x1024 ![] bcast_S_S128x16x1024 main_cst_0
  let main_v6 : IVec S128x16x1024 1 := cmpf .olt main_v4 main_v5
  let main_c_1 : IVec S_ 1 := constantI S_ 1 1#1
  let main_v7 : IVec S_ 1 := (fun x v => Host.reduce IntOp.andi x v reducesTo_S128x16x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S16x128x1024 : Shape := ⟨3, ![16, 128, 1024]⟩
abbrev S2048x1024 : Shape := ⟨2, ![2048, 1024]⟩
abbrev S1024x1024 : Shape := ⟨2, ![1024, 1024]⟩
abbrev S32x16x128x1 : Shape := ⟨4, ![32, 16, 128, 1]⟩
abbrev S16x16x1024 : Shape := ⟨3, ![16, 16, 1024]⟩
abbrev S16x128x256 : Shape := ⟨3, ![16, 128, 256]⟩
abbrev S1024x256 : Shape := ⟨2, ![1024, 256]⟩
abbrev S1x256 : Shape := ⟨2, ![1, 256]⟩
abbrev S16x16x128x1 : Shape := ⟨4, ![16, 16, 128, 1]⟩
abbrev S256x1024 : Shape := ⟨2, ![256, 1024]⟩
abbrev S256x256 : Shape := ⟨2, ![256, 256]⟩
abbrev S16x16x256 : Shape := ⟨3, ![16, 16, 256]⟩
abbrev S1x1x1x256 : Shape := ⟨4, ![1, 1, 1, 256]⟩
abbrev S16x16x1x256 : Shape := ⟨4, ![16, 16, 1, 256]⟩
abbrev S1x16x16x256 : Shape := ⟨4, ![1, 16, 16, 256]⟩
abbrev S16x16x16x256 : Shape := ⟨4, ![16, 16, 16, 256]⟩
abbrev S16x16x16 : Shape := ⟨3, ![16, 16, 16]⟩
abbrev S16x16x16x1 : Shape := ⟨4, ![16, 16, 16, 1]⟩
abbrev S32x16x128 : Shape := ⟨3, ![32, 16, 128]⟩
abbrev S_ : Shape := ⟨0, ![]⟩
abbrev S32x16 : Shape := ⟨2, ![32, 16]⟩
abbrev S32x16x1 : Shape := ⟨3, ![32, 16, 1]⟩
abbrev S32x128x16 : Shape := ⟨3, ![32, 128, 16]⟩
abbrev S32x128x16x1 : Shape := ⟨4, ![32, 128, 16, 1]⟩

abbrev nBuf : Space → Nat
  | .hbm => 34
  | .vmem => 15
  | .smem => 0
  | _ => 0

abbrev bufTy : (tb : Table) → Fin (tcTables nBuf tb) → BufTy
  | .hbm, ⟨0, _⟩ => ⟨S32x16x1024, .f32⟩
  | .hbm, ⟨1, _⟩ => ⟨S128x16x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S32x16x1024, .bf16⟩
  | .hbm, ⟨6, _⟩ => ⟨S16x128x1024, .f32⟩
  | .hbm, ⟨7, _⟩ => ⟨S16x128x1024, .bf16⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S2048x1024, .bf16⟩
  | .hbm, ⟨14, _⟩ => ⟨S2048x1024, .bf16⟩
  | .hbm, ⟨15, _⟩ => ⟨S16x128x1024, .bf16⟩
  | .hbm, ⟨16, _⟩ => ⟨S32x16x128x1, .f32⟩
  | .hbm, ⟨17, _⟩ => ⟨S32x16x128, .f32⟩
  | .hbm, ⟨18, _⟩ => ⟨S_, .f32⟩
  | .hbm, ⟨19, _⟩ => ⟨S32x16, .f32⟩
  | .hbm, ⟨20, _⟩ => ⟨S_, .f32⟩
  | .hbm, ⟨21, _⟩ => ⟨S32x16, .f32⟩
  | .hbm, ⟨22, _⟩ => ⟨S32x16, .f32⟩
  | .hbm, ⟨23, _⟩ => ⟨S32x16x1, .f32⟩
  | .hbm, ⟨24, _⟩ => ⟨S32x16x128, .f32⟩
  | .hbm, ⟨25, _⟩ => ⟨S32x16x128, .f32⟩
  | .hbm, ⟨26, _⟩ => ⟨S32x16x128, .f32⟩
  | .hbm, ⟨27, _⟩ => ⟨S_, .f32⟩
  | .hbm, ⟨28, _⟩ => ⟨S32x16, .f32⟩
  | .hbm, ⟨29, _⟩ => ⟨S32x16x1, .f32⟩
  | .hbm, ⟨30, _⟩ => ⟨S32x16x128, .f32⟩
  | .hbm, ⟨31, _⟩ => ⟨S32x16x128, .f32⟩
  | .hbm, ⟨32, _⟩ => ⟨S32x128x16, .f32⟩
  | .hbm, ⟨33, _⟩ => ⟨S32x128x16x1, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S16x16x1024, .bf16⟩
  | .local _ .vmem, ⟨4, _⟩ => ⟨S16x16x1024, .bf16⟩
  | .local _ .vmem, ⟨5, _⟩ => ⟨S16x128x256, .bf16⟩
  | .local _ .vmem, ⟨6, _⟩ => ⟨S16x128x256, .bf16⟩
  | .local _ .vmem, ⟨7, _⟩ => ⟨S1024x256, .bf16⟩
  | .local _ .vmem, ⟨8, _⟩ => ⟨S1024x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S16x16x128x1, .f32⟩
  | .local _ .vmem, ⟨14, _⟩ => ⟨S16x16x128x1, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 4], ![false, false]⟩

def k1_mult1 : BitVec 32 :=
  let c0_i32_10 : BitVec 32 := 0#32
  let c0_i32_9 : BitVec 32 := 0#32
  let c1_i32 : BitVec 32 := 1#32
  let v15 : BitVec 32 := Scalar.muli c0_i32_9 c1_i32
  let v16 : BitVec 32 := Scalar.addi c0_i32_10 v15
  let c16_i32 : BitVec 32 := 16#32
  let v17 : BitVec 32 := Scalar.muli v16 c16_i32
  v17
def k1_off1 (c0_i32_9 : BitVec 32) : Fin 3 → Nat :=
  let c0_11 : Index := 0#32
  let c0_i32_10 : BitVec 32 := 0#32
  let c1_i32 : BitVec 32 := 1#32
  let v15 : BitVec 32 := Scalar.muli c0_i32_9 c1_i32
  let v16 : BitVec 32 := Scalar.addi c0_i32_10 v15
  let c16_i32 : BitVec 32 := 16#32
  let v17 : BitVec 32 := Scalar.muli v16 c16_i32
  let v18 : BitVec 32 := v17
  let v19 : Index := Scalar.indexCast v18
  let c0_12 : Index := 0#32
  ![0, v19.toNat, 0]
def k1_off2 (c0_i32_9 : BitVec 32) : Fin 4 → Nat :=
  let c0_14 : Index := 0#32
  let c0_15 : Index := 0#32
  let c0_i32_10 : BitVec 32 := 0#32
  let c1_i32 : BitVec 32 := 1#32
  let v15 : BitVec 32 := Scalar.muli c0_i32_9 c1_i32
  let v16 : BitVec 32 := Scalar.addi c0_i32_10 v15
  let c16_i32 : BitVec 32 := 16#32
  let v17 : BitVec 32 := Scalar.muli v16 c16_i32
  let v18 : BitVec 32 := v17
  let v35 : Index := Scalar.indexCast v18
  let c0_16 : Index := 0#32
  ![0, 0, v35.toNat, 0]
def k1_mult2 : BitVec 32 :=
  let c0_i32_22 : BitVec 32 := 0#32
  let c1_i32_20 : BitVec 32 := 1#32
  let c1_i32_21 : BitVec 32 := 1#32
  let v41 : BitVec 32 := Scalar.muli c1_i32_20 c1_i32_21
  let v42 : BitVec 32 := Scalar.addi c0_i32_22 v41
  let c16_i32_23 : BitVec 32 := 16#32
  let v43 : BitVec 32 := Scalar.muli v42 c16_i32_23
  v43
def k1_mult3 : BitVec 32 :=
  let c0_i32_34 : BitVec 32 := 0#32
  let c2_i32 : BitVec 32 := 2#32
  let c1_i32_33 : BitVec 32 := 1#32
  let v67 : BitVec 32 := Scalar.muli c2_i32 c1_i32_33
  let v68 : BitVec 32 := Scalar.addi c0_i32_34 v67
  let c16_i32_35 : BitVec 32 := 16#32
  let v69 : BitVec 32 := Scalar.muli v68 c16_i32_35
  v69
def k1_mult4 : BitVec 32 :=
  let c0_i32_46 : BitVec 32 := 0#32
  let c3_i32 : BitVec 32 := 3#32
  let c1_i32_45 : BitVec 32 := 1#32
  let v93 : BitVec 32 := Scalar.muli c3_i32 c1_i32_45
  let v94 : BitVec 32 := Scalar.addi c0_i32_46 v93
  let c16_i32_47 : BitVec 32 := 16#32
  let v95 : BitVec 32 := Scalar.muli v94 c16_i32_47
  v95
def k1_mult5 : BitVec 32 :=
  let c0_i32_58 : BitVec 32 := 0#32
  let c4_i32 : BitVec 32 := 4#32
  let c1_i32_57 : BitVec 32 := 1#32
  let v119 : BitVec 32 := Scalar.muli c4_i32 c1_i32_57
  let v120 : BitVec 32 := Scalar.addi c0_i32_58 v119
  let c16_i32_59 : BitVec 32 := 16#32
  let v121 : BitVec 32 := Scalar.muli v120 c16_i32_59
  v121
def k1_mult6 : BitVec 32 :=
  let c0_i32_70 : BitVec 32 := 0#32
  let c5_i32 : BitVec 32 := 5#32
  let c1_i32_69 : BitVec 32 := 1#32
  let v145 : BitVec 32 := Scalar.muli c5_i32 c1_i32_69
  let v146 : BitVec 32 := Scalar.addi c0_i32_70 v145
  let c16_i32_71 : BitVec 32 := 16#32
  let v147 : BitVec 32 := Scalar.muli v146 c16_i32_71
  v147
def k1_mult7 : BitVec 32 :=
  let c0_i32_82 : BitVec 32 := 0#32
  let c6_i32 : BitVec 32 := 6#32
  let c1_i32_81 : BitVec 32 := 1#32
  let v171 : BitVec 32 := Scalar.muli c6_i32 c1_i32_81
  let v172 : BitVec 32 := Scalar.addi c0_i32_82 v171
  let c16_i32_83 : BitVec 32 := 16#32
  let v173 : BitVec 32 := Scalar.muli v172 c16_i32_83
  v173
def k1_mult8 : BitVec 32 :=
  let c0_i32_94 : BitVec 32 := 0#32
  let c7_i32 : BitVec 32 := 7#32
  let c1_i32_93 : BitVec 32 := 1#32
  let v197 : BitVec 32 := Scalar.muli c7_i32 c1_i32_93
  let v198 : BitVec 32 := Scalar.addi c0_i32_94 v197
  let c16_i32_95 : BitVec 32 := 16#32
  let v199 : BitVec 32 := Scalar.muli v198 c16_i32_95
  v199
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x16x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S16x16x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  transposes_S128x16x1024_S16x128x1024_1_0_2 : S128x16x1024.Transposes [1, 0, 2] S16x128x1024
  transposes_S1024x2048_S2048x1024_1_0 : S1024x2048.Transposes [1, 0] S2048x1024
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  shapeCasts_S16x128x1024_S2048x1024 : S16x128x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S2048x1024_S2048x1024_0_0 : (Rect.unit (s := S2048x1024) ![0, 0] S2048x1024.size inb_S2048x1024_S2048x1024_0_0).PackedRows (EltTy.packing .bf16)
  shapeCasts_S2048x1024_S16x128x1024 : S2048x1024.ShapeCasts S16x128x1024
  inb_S16x16x1024_S16x16x1024_0_0_0 : ∀ a, (![0, 0, 0] : Fin 3 → Nat) a + S16x16x1024.size a ≤ S16x16x1024.size a
  h_S16x16x1024 : 0 < S16x16x1024.numel
  shapeCasts_S16x16x1024_S16x16x1024 : S16x16x1024.ShapeCasts S16x16x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S16x16x1024_S256x1024 : S16x16x1024.ShapeCasts S256x1024
  shapeCasts_S256x256_S16x16x256 : S256x256.ShapeCasts S16x16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x1x256 : S1x256.ShapeCasts S1x1x1x256
  inb_S16x16x128x1_S16x16x128x1_0_0_0_0 : ∀ a, (![0, 0, 0, 0] : Fin 4 → Nat) a + S16x16x128x1.size a ≤ S16x16x128x1.size a
  h_S16x16x128x1 : 0 < S16x16x128x1.numel
  h_S16x16x256 : 0 < S16x16x256.numel
  shapeCasts_S16x16x256_S16x16x256 : S16x16x256.ShapeCasts S16x16x256
  shapeCasts_S16x16x256_S16x16x1x256 : S16x16x256.ShapeCasts S16x16x1x256
  shapeCasts_S16x16x256_S1x16x16x256 : S16x16x256.ShapeCasts S1x16x16x256
  broadcasts_S16x16x1x256_S16x16x16x256 : S16x16x1x256.Broadcasts S16x16x16x256
  broadcasts_S1x16x16x256_S16x16x16x256 : S1x16x16x256.Broadcasts S16x16x16x256
  broadcasts_S1x1x1x256_S16x16x16x256 : S1x1x1x256.Broadcasts S16x16x16x256
  reduces_S16x16x16x256_S16x16x16 : S16x16x16x256.Reduces [3] S16x16x16
  shapeCasts_S16x16x16_S16x16x16x1 : S16x16x16.ShapeCasts S16x16x16x1
  h_S16x16x16x1 : 0 < S16x16x16x1.numel
  shapeCasts_S16x16x16x1_S16x16x16x1 : S16x16x16x1.ShapeCasts S16x16x16x1
  shapeCasts_S32x16x128x1_S32x16x128 : S32x16x128x1.ShapeCasts S32x16x128
  reducesTo_S32x16x128_S32x16_d2 : S32x16x128.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x128_0_1_2 : S32x16x1.BroadcastsInDim S32x16x128 (![0, 1, 2] : Fin 3 → Fin S32x16x128.rank)
  transposes_S32x16x128_S32x128x16_0_2_1 : S32x16x128.Transposes [0, 2, 1] S32x128x16
  bcast_S32x128x16_S32x128x16x1_0_1_2 : S32x128x16.BroadcastsInDim S32x128x16x1 (![0, 1, 2] : Fin 3 → Fin S32x128x16x1.rank)
  dot_S2048x1024_S1024x1024_S2048x1024_1_0_0_1_n_n_wf : DotDims.WF S2048x1024 S1024x1024 S2048x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hrank1 : 0 < grid1.rank
  k1_mult1_dvd : 16 ∣ k1_mult1.toNat
  k1_off1_inb : ∀ (r : Fin 8), ∀ a, (k1_off1 (BitVec.ofNat 32 r.val)) a + S16x16x256.size a ≤ S16x128x256.size a
  k1_off2_inb : ∀ (r : Fin 8), ∀ a, (k1_off2 (BitVec.ofNat 32 r.val)) a + S16x16x16x1.size a ≤ S16x16x128x1.size a
  k1_mult2_dvd : 16 ∣ k1_mult2.toNat
  k1_mult3_dvd : 16 ∣ k1_mult3.toNat
  k1_mult4_dvd : 16 ∣ k1_mult4.toNat
  k1_mult5_dvd : 16 ∣ k1_mult5.toNat
  k1_mult6_dvd : 16 ∣ k1_mult6.toNat
  k1_mult7_dvd : 16 ∣ k1_mult7.toNat
  k1_mult8_dvd : 16 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16x1024.size a ≤ S32x16x1024.size a
  hwx1_0 : ∀ i : grid1.Coords, EltTy.bits .bf16 = 32 ∨ (Rect.block (s := S32x16x1024) S16x16x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x256.size a ≤ S16x128x1024.size a
  hwx1_1 : ∀ i : grid1.Coords, EltTy.bits .bf16 = 32 ∨ (Rect.block (s := S16x128x1024) S16x128x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x1024.size a
  hwx1_2 : ∀ i : grid1.Coords, EltTy.bits .bf16 = 32 ∨ (Rect.block (s := S1024x1024) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x1024.size a
  hwx1_3 : ∀ i : grid1.Coords, EltTy.bits .f32 = 32 ∨ (Rect.block (s := S1x1024) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x1024.size a
  hwx1_4 : ∀ i : grid1.Coords, EltTy.bits .f32 = 32 ∨ (Rect.block (s := S1x1024) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x16x128x1.size a ≤ S32x16x128x1.size a
  hwx1_5 : ∀ i : grid1.Coords, EltTy.bits .f32 = 32 ∨ (Rect.block (s := S32x16x128x1) S16x16x128x1.size (cc1_transform_5 i) (hinb1_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v8) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S16x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S16x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S16x16x128x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩
abbrev S32x1x16x1024 : Shape := ⟨4, ![32, 1, 16, 1024]⟩
abbrev S1x128x16x1024 : Shape := ⟨4, ![1, 128, 16, 1024]⟩
abbrev S32x128x16x1024 : Shape := ⟨4, ![32, 128, 16, 1024]⟩
abbrev S1x1x1x1024 : Shape := ⟨4, ![1, 1, 1, 1024]⟩
abbrev S32x128x16x1 : Shape := ⟨4, ![32, 128, 16, 1]⟩
abbrev S_ : Shape := ⟨0, ![]⟩
abbrev S32x16x1 : Shape := ⟨3, ![32, 16, 1]⟩
abbrev S32x1x16x1 : Shape := ⟨4, ![32, 1, 16, 1]⟩

abbrev nBuf : Space → Nat
  | .hbm => 33
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S128x16x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S32x16x1024, .f32⟩
  | .hbm, ⟨8, _⟩ => ⟨S128x16x1024, .f32⟩
  | .hbm, ⟨9, _⟩ => ⟨S32x1x16x1024, .f32⟩
  | .hbm, ⟨10, _⟩ => ⟨S1x128x16x1024, .f32⟩
  | .hbm, ⟨11, _⟩ => ⟨S32x128x16x1024, .f32⟩
  | .hbm, ⟨12, _⟩ => ⟨S32x128x16x1024, .f32⟩
  | .hbm, ⟨13, _⟩ => ⟨S32x128x16x1024, .f32⟩
  | .hbm, ⟨14, _⟩ => ⟨S1x1x1x1024, .f32⟩
  | .hbm, ⟨15, _⟩ => ⟨S32x128x16x1024, .f32⟩
  | .hbm, ⟨16, _⟩ => ⟨S32x128x16x1024, .f32⟩
  | .hbm, ⟨17, _⟩ => ⟨S32x128x16x1024, .f32⟩
  | .hbm, ⟨18, _⟩ => ⟨S32x128x16x1, .f32⟩
  | .hbm, ⟨19, _⟩ => ⟨S_, .f32⟩
  | .hbm, ⟨20, _⟩ => ⟨S32x16x1, .f32⟩
  | .hbm, ⟨21, _⟩ => ⟨S_, .f32⟩
  | .hbm, ⟨22, _⟩ => ⟨S32x16x1, .f32⟩
  | .hbm, ⟨23, _⟩ => ⟨S32x16x1, .f32⟩
  | .hbm, ⟨24, _⟩ => ⟨S32x1x16x1, .f32⟩
  | .hbm, ⟨25, _⟩ => ⟨S32x128x16x1, .f32⟩
  | .hbm, ⟨26, _⟩ => ⟨S32x128x16x1, .f32⟩
  | .hbm, ⟨27, _⟩ => ⟨S32x128x16x1, .f32⟩
  | .hbm, ⟨28, _⟩ => ⟨S_, .f32⟩
  | .hbm, ⟨29, _⟩ => ⟨S32x16x1, .f32⟩
  | .hbm, ⟨30, _⟩ => ⟨S32x1x16x1, .f32⟩
  | .hbm, ⟨31, _⟩ => ⟨S32x128x16x1, .f32⟩
  | .hbm, ⟨32, _⟩ => ⟨S32x128x16x1, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S1024x2048_S1024x1024_0_0 : S1024x2048.Slices ![0, 0] S1024x1024
  slices_S1024x2048_S1024x1024_0_1024 : S1024x2048.Slices ![0, 1024] S1024x1024
  bcast_S32x16x1024_S32x1x16x1024_0_2_3 : S32x16x1024.BroadcastsInDim S32x1x16x1024 (![0, 2, 3] : Fin 3 → Fin S32x1x16x1024.rank)
  bcast_S128x16x1024_S1x128x16x1024_1_2_3 : S128x16x1024.BroadcastsInDim S1x128x16x1024 (![1, 2, 3] : Fin 3 → Fin S1x128x16x1024.rank)
  bcast_S32x1x16x1024_S32x128x16x1024_0_1_2_3 : S32x1x16x1024.BroadcastsInDim S32x128x16x1024 (![0, 1, 2, 3] : Fin 4 → Fin S32x128x16x1024.rank)
  bcast_S1x128x16x1024_S32x128x16x1024_0_1_2_3 : S1x128x16x1024.BroadcastsInDim S32x128x16x1024 (![0, 1, 2, 3] : Fin 4 → Fin S32x128x16x1024.rank)
  bcast_S1024_S1x1x1x1024_3 : S1024.BroadcastsInDim S1x1x1x1024 (![3] : Fin 1 → Fin S1x1x1x1024.rank)
  bcast_S1x1x1x1024_S32x128x16x1024_0_1_2_3 : S1x1x1x1024.BroadcastsInDim S32x128x16x1024 (![0, 1, 2, 3] : Fin 4 → Fin S32x128x16x1024.rank)
  reducesTo_S32x128x16x1_S32x16x1_d1 : S32x128x16x1.ReducesTo [1] S32x16x1
  h_S_ : 0 < S_.numel
  bcast_S_S32x16x1 : S_.BroadcastsInDim S32x16x1 (![] : Fin 0 → Fin S32x16x1.rank)
  bcast_S32x16x1_S32x1x16x1_0_2_3 : S32x16x1.BroadcastsInDim S32x1x16x1 (![0, 2, 3] : Fin 3 → Fin S32x1x16x1.rank)
  bcast_S32x1x16x1_S32x128x16x1_0_1_2_3 : S32x1x16x1.BroadcastsInDim S32x128x16x1 (![0, 1, 2, 3] : Fin 4 → Fin S32x128x16x1.rank)
  dot_S32x16x1024_S1024x1024_S32x16x1024_2_1_01_0_n_n_wf : DotDims.WF S32x16x1024 S1024x1024 S32x16x1024 [2] [1] [0, 1] [0] [] []
  dot_S128x16x1024_S1024x1024_S128x16x1024_2_1_01_0_n_n_wf : DotDims.WF S128x16x1024 S1024x1024 S128x16x1024 [2] [1] [0, 1] [0] [] []
  dot_S32x128x16x1024_S1x1024_S32x128x16x1_3_1_012_0_n_n_wf : DotDims.WF S32x128x16x1024 S1x1024 S32x128x16x1 [3] [1] [0, 1, 2] [0] [] []

variable [Facts₀]

def dot_S32x16x1024_S1024x1024_S32x16x1024_2_1_01_0_n_n : DotDims S32x16x1024 S1024x1024 S32x16x1024 where
  lhsContracting := [2]
  rhsContracting := [1]
  lhsNonContracting := [0, 1]
  rhsNonContracting := [0]
  lhsBatch := []
  rhsBatch := []
  wf := dot_S32x16x1024_S1024x1024_S32x16x1024_2_1_01_0_n_n_wf
def dot_S128x16x1024_S1024x1024_S128x16x1024_2_1_01_0_n_n : DotDims S128x16x1024 S1024x1024 S128x16x1024 where
  lhsContracting := [2]
  rhsContracting := [1]
  lhsNonContracting := [0, 1]
  rhsNonContracting := [0]
  lhsBatch := []
  rhsBatch := []
  wf := dot_S128x16x1024_S1024x1024_S128x16x1024_2_1_01_0_n_n_wf
def dot_S32x128x16x1024_S1x1024_S32x128x16x1_3_1_012_0_n_n : DotDims S32x128x16x1024 S1x1024 S32x128x16x1 where
  lhsContracting := [3]
  rhsContracting := [1]
  lhsNonContracting := [0, 1, 2]
  rhsNonContracting := [0]
  lhsBatch := []
  rhsBatch := []
  wf := dot_S32x128x16x1024_S1x1024_S32x128x16x1_3_1_012_0_n_n_wf

class Facts : Prop extends Facts₀ where

variable [Facts]
-- ==== Proof.KernelRun.lean ====
/-
  The kernel program's run with its result named.

  The program is two kernel regions among three stretches of host operations.  Every weakly fair execution from a memory
  with all counters at zero terminates without a fault, and in the final memory every buffer that is not scoped to a
  region holds what the fold of the program's segments leaves there: in particular the result buffer holds the last
  stretch's contents at it, and the five argument arrays hold what they held at launch.  The launch, the chaining of the
  segments' thread states and the reading of the last thread state against the final memory are the frame's; only the
  reading of the result buffer is added to the argument readings.
-/
import proofs.«130481_j79894981640368_2_alg».proof.Proof.Gen.KernelIdeal.Frame

set_option maxRecDepth 16384

noncomputable section

namespace Cert.Attn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the last
    stretch's contents and the argument arrays as launched. -/
theorem run : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Attn.KernelRun

end
-- ==== Proof.Spec.lean ====
/-
  The function both programs compute, on the extended reals.

  Inputs: the target states h [32, 16, 1024], the source encodings e [128, 16, 1024], the weight w [1024, 2048] (its
  first 1024 columns act on a target state, its last 1024 on a source encoding), the bias [1024] and the scoring row
  va [1, 1024].  For a target position t, a source position s and a batch entry b,

      score t s b  =  sum over o of  tanh ((tproj t b o + sproj s b o) + bias o) * va o,
      tproj t b o  =  sum over k of  h (t, b, k) * w (o, k),
      sproj s b o  =  sum over k of  e (s, b, k) * w (o, 1024 + k),

  and the result at (t, s, b) is the softmax over the source positions of the scores of (t, ·, b): with M the larger of
  the start value of the maximum and the running maximum of the row, exp (score - M) divided by the start value of the
  sum plus the sum of the row's exp (score - M).  The two start values are kept as the words both programs print.
-/
import Idealize.ShloMosaic.PureOps.Ideal
import Idealize.ShloMosaic.Lib.ValueIdx

noncomputable section

open scoped BigOperators

namespace Cert.Attn

open Idealize.ShloMosaic Idealize.ShloMosaic.ValueIdx

/-- Column k of the weight's target half. -/
def lo (k : Fin 1024) : Fin 2048 := ⟨k.val, by have := k.isLt; omega⟩
/-- Column k of the weight's source half. -/
def hi (k : Fin 1024) : Fin 2048 := ⟨1024 + k.val, by have := k.isLt; omega⟩

theorem lo_val (k : Fin 1024) : (lo k).val = k.val := rfl
theorem hi_val (k : Fin 1024) : (hi k).val = 1024 + k.val := rfl

/-- The projection of target state (t, b) on output feature o. -/
def tproj (h : FVec Ideal ⟨3, ![32, 16, 1024]⟩ .f32) (w : FVec Ideal ⟨2, ![1024, 2048]⟩ .f32)
    (t : Fin 32) (b : Fin 16) (o : Fin 1024) : EReal :=
  ∑ k : Fin 1024, h (ix3 t b k) * w (ix2 o (lo k))

/-- The projection of source encoding (s, b) on output feature o. -/
def sproj (e : FVec Ideal ⟨3, ![128, 16, 1024]⟩ .f32) (w : FVec Ideal ⟨2, ![1024, 2048]⟩ .f32)
    (s : Fin 128) (b : Fin 16) (o : Fin 1024) : EReal :=
  ∑ k : Fin 1024, e (ix3 s b k) * w (ix2 o (hi k))

/-- One summand of a score: the hidden unit o of the pair (t, s) in batch entry b, weighted by the scoring row. -/
def term (h : FVec Ideal ⟨3, ![32, 16, 1024]⟩ .f32) (e : FVec Ideal ⟨3, ![128, 16, 1024]⟩ .f32)
    (w : FVec Ideal ⟨2, ![1024, 2048]⟩ .f32) (bias : FVec Ideal ⟨1, ![1024]⟩ .f32) (va : FVec Ideal ⟨2, ![1, 1024]⟩ .f32)
    (t : Fin 32) (s : Fin 128) (b : Fin 16) (o : Fin 1024) : EReal :=
  Ideal.tanh ((tproj h w t b o + sproj e w s b o) + bias (ix1 o)) * va (ix2 (0 : Fin 1) o)

/-- The attention score of target position t against source position s in batch entry b. -/
def score (h : FVec Ideal ⟨3, ![32, 16, 1024]⟩ .f32) (e : FVec Ideal ⟨3, ![128, 16, 1024]⟩ .f32)
    (w : FVec Ideal ⟨2, ![1024, 2048]⟩ .f32) (bias : FVec Ideal ⟨1, ![1024]⟩ .f32) (va : FVec Ideal ⟨2, ![1, 1024]⟩ .f32)
    (t : Fin 32) (s : Fin 128) (b : Fin 16) : EReal :=
  ∑ o : Fin 1024, term h e w bias va t s b o

/-- The shift of a row of scores: the larger of the maximum's start value and the row's running maximum from it. -/
def rowMax (sc : Fin 128 → EReal) : EReal :=
  max (Ideal.ofBits .f32 0xFF800000#32) ((Finset.univ : Finset (Fin 128)).fold max (Ideal.ofBits .f32 0xFF800000#32) sc)

/-- The softmax of a row of 128 scores at position s. -/
def softmaxRow (sc : Fin 128 → EReal) (s : Fin 128) : EReal :=
  Ideal.div (Ideal.exp (sc s - rowMax sc))
    (Ideal.ofBits .f32 0x00000000#32 + ∑ s' : Fin 128, Ideal.exp (sc s' - rowMax sc))

/-- The result: at (t, s, b, 0) the softmax over the source positions of the scores of target position t in batch
    entry b. -/
def out (h : FVec Ideal ⟨3, ![32, 16, 1024]⟩ .f32) (e : FVec Ideal ⟨3, ![128, 16, 1024]⟩ .f32)
    (w : FVec Ideal ⟨2, ![1024, 2048]⟩ .f32) (bias : FVec Ideal ⟨1, ![1024]⟩ .f32) (va : FVec Ideal ⟨2, ![1, 1024]⟩ .f32) :
    FVec Ideal ⟨4, ![32, 128, 16, 1]⟩ .f32 :=
  fun i => softmaxRow (fun s' => score h e w bias va (i 0) s' (i 2)) (i 1)

theorem out_apply (h : FVec Ideal ⟨3, ![32, 16, 1024]⟩ .f32) (e : FVec Ideal ⟨3, ![128, 16, 1024]⟩ .f32)
    (w : FVec Ideal ⟨2, ![1024, 2048]⟩ .f32) (bias : FVec Ideal ⟨1, ![1024]⟩ .f32) (va : FVec Ideal ⟨2, ![1, 1024]⟩ .f32)
    (t : Fin 32) (s : Fin 128) (b : Fin 16) (u : Fin 1) :
    out h e w bias va (ix4 t s b u) = softmaxRow (fun s' => score h e w bias va t s' b) s := rfl

end Cert.Attn

end
-- ==== Proof.LibLastAxisReduce.lean ====
/-
  The host's maximum-reduce over the LAST axis of a rank-3 array, read at one entry.

  For an [n0, n1, n2] array reduced over its third axis into an [n0, n1] matrix, the entry at (b, i) is the fold of
  `max`, from the start value, over the entries (b, i, 0), …, (b, i, n2-1).  Stated at the extended reals, for any
  extents and float format: the rank-3 companion of the reduction along the rows of a matrix.
-/
import Idealize.ShloMosaic.PureOps.Ideal.Laws
import Idealize.ShloMosaic.Lib.ValueIdx

noncomputable section
namespace Cert.LibLastAxisReduce
open Idealize.ShloMosaic Idealize.ShloMosaic.ValueIdx

variable {φ : FTy}

/-- Entry (b, i) of the result with the coordinate o put back on the reduced axis is the entry (b, i, o). -/
theorem lift_last {n0 n1 n2 : ℕ} (h : (⟨3, ![n0, n1, n2]⟩ : Shape).Reduces [2] ⟨2, ![n0, n1]⟩)
    (b : Fin n0) (i : Fin n1) (o : Fin n2) : h.lift (ix2 b i) o = ix3 b i o :=
  funext fun a => Fin.ext (by
    match a with
    | ⟨0, _⟩ => rfl
    | ⟨1, _⟩ => rfl
    | ⟨2, _⟩ => rfl)

/-- The host's maximum-reduce over the last axis: the fold of `max` over that axis from the start value. -/
theorem hostReduce_max_last {n0 n1 n2 : ℕ} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (b : Fin n0) (i : Fin n1) :
    Host.reduce (FloatOps.maximumf (F := Ideal) (φ := φ)) x init h' hu (ix2 b i)
      = (Finset.univ : Finset (Fin n2)).fold max (init (Shape.Idx.first hu)) (fun o => x (ix3 b i o)) :=
  (Host.reduce_eq_fold_single (FloatOps.maximumf (F := Ideal) (φ := φ)) x init h' h hu (ix2 b i)).trans
    (congrArg (Finset.fold max (init (Shape.Idx.first hu)) · Finset.univ) (funext fun o => congrArg x (lift_last h b i o)))

end Cert.LibLastAxisReduce
end
-- ==== Proof.TailValue.lean ====
/-
  The last stretch of the kernel program, as a function of the scores it starts from, is the row softmax.

  The scores arrive as an array [32, 16, 128, 1] (target position t, batch entry b, source position s, a unit axis).
  The stretch drops the unit axis; takes, for every (t, b), the running maximum of the row of 128 scores from the start
  value of the maximum and then the larger of that start value and the running maximum; subtracts this shift from every
  score of the row and exponentiates; sums the row of exponentials from the start value of the sum; divides every
  exponential by its row's sum; and finally exchanges the batch and source axes and puts the unit axis back, giving an
  array [32, 128, 16, 1].  At (t, s, b, 0) the result is therefore the softmax, at position s, of the row of scores
  s' ↦ x (t, b, s', 0).  The two start values stay the words the program prints.
-/
import proofs.«130481_j79894981640368_2_alg».proof.Proof.Spec
import proofs.«130481_j79894981640368_2_alg».proof.KernelIdeal
import proofs.«130481_j79894981640368_2_alg».proof.Proof.LibLastAxisReduce
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.Attn.Tail

open Idealize.ShloMosaic Idealize.ShloMosaic.ValueIdx
open Cert.KernelIdeal Cert.KernelIdeal.Facts₀

variable [Cert.KernelIdeal.Facts₀]

/-! ## The stages -/

/-- The start value of the maximum, as a rank-0 array. -/
def maxStart : FVec Ideal S_ .f32 := constant (F := Ideal) S_ .f32 0xFF800000#32

/-- The start value of the sum, as a rank-0 array. -/
def sumStart : FVec Ideal S_ .f32 := constant (F := Ideal) S_ .f32 0x00000000#32

/-- The scores with the unit axis dropped. -/
def scores (x : FVec Ideal S32x16x128x1 .f32) : FVec Ideal S32x16x128 .f32 :=
  shapeCast S32x16x128 x shapeCasts_S32x16x128x1_S32x16x128

/-- The running maximum of every row from the start value. -/
def runMax (x : FVec Ideal S32x16x128x1 .f32) : FVec Ideal S32x16 .f32 :=
  Host.reduce (FloatOps.maximumf (F := Ideal) (φ := .f32)) (scores x) maxStart reducesTo_S32x16x128_S32x16_d2 h_S_

/-- The shift of every row: the larger of the start value and the running maximum. -/
def shift (x : FVec Ideal S32x16x128x1 .f32) : FVec Ideal S32x16 .f32 :=
  maximumf (broadcastInDim S32x16 ![] bcast_S_S32x16 maxStart) (runMax x)

/-- The shift, repeated along every row. -/
def shiftRows (x : FVec Ideal S32x16x128x1 .f32) : FVec Ideal S32x16x128 .f32 :=
  broadcastInDim S32x16x128 ![0, 1, 2] bcast_S32x16x1_S32x16x128_0_1_2
    (broadcastInDim S32x16x1 ![0, 1] bcast_S32x16_S32x16x1_0_1 (shift x))

/-- The exponentials of the shifted scores. -/
def expo (x : FVec Ideal S32x16x128x1 .f32) : FVec Ideal S32x16x128 .f32 :=
  Host.exp (F := Ideal) (subf (scores x) (shiftRows x))

/-- The sum of every row of exponentials from the start value. -/
def total (x : FVec Ideal S32x16x128x1 .f32) : FVec Ideal S32x16 .f32 :=
  Host.reduceAdd (F := Ideal) (expo x) sumStart reducesTo_S32x16x128_S32x16_d2 h_S_

/-- The row sums, repeated along every row. -/
def totalRows (x : FVec Ideal S32x16x128x1 .f32) : FVec Ideal S32x16x128 .f32 :=
  broadcastInDim S32x16x128 ![0, 1, 2] bcast_S32x16x1_S32x16x128_0_1_2
    (broadcastInDim S32x16x1 ![0, 1] bcast_S32x16_S32x16x1_0_1 (total x))

/-- Every exponential divided by its row's sum. -/
def quot (x : FVec Ideal S32x16x128x1 .f32) : FVec Ideal S32x16x128 .f32 :=
  Host.divf (F := Ideal) (expo x) (totalRows x)

/-- The whole stretch: the quotients with the batch and source axes exchanged and the unit axis put back. -/
def tail (x : FVec Ideal S32x16x128x1 .f32) : FVec Ideal S32x128x16x1 .f32 :=
  broadcastInDim S32x128x16x1 ![0, 1, 2] bcast_S32x128x16_S32x128x16x1_0_1_2
    (transpose S32x128x16 [0, 2, 1] (quot x) transposes_S32x16x128_S32x128x16_0_2_1)

/-! ## Each stage read at an entry -/

theorem maxStart_apply (i : S_.Idx) : maxStart i = Ideal.ofBits .f32 0xFF800000#32 := rfl

theorem sumStart_apply (i : S_.Idx) : sumStart i = Ideal.ofBits .f32 0x00000000#32 := rfl

/-- Dropping the unit axis keeps the entry: row-major position ((t·16 + b)·128 + s)·1 + 0 is (t·16 + b)·128 + s. -/
theorem scores_apply (x : FVec Ideal S32x16x128x1 .f32) (t : Fin 32) (b : Fin 16) (s : Fin 128) :
    scores x (ix3 t b s) = x (ix4 t b s (0 : Fin 1)) :=
  shapeCast_apply x shapeCasts_S32x16x128x1_S32x16x128 (ix3 t b s) (ix4 t b s (0 : Fin 1)) (by
    rw [Shape.rowMajor_val_four, Shape.rowMajor_val_three]
    show ((t.val * 16 + b.val) * 128 + s.val) * 1 + 0 = (t.val * 16 + b.val) * 128 + s.val
    omega)

/-- The running maximum of row (t, b). -/
theorem runMax_apply (x : FVec Ideal S32x16x128x1 .f32) (t : Fin 32) (b : Fin 16) :
    runMax x (ix2 t b)
      = (Finset.univ : Finset (Fin 128)).fold max (Ideal.ofBits .f32 0xFF800000#32) (fun s => x (ix4 t b s (0 : Fin 1))) := by
  unfold runMax
  refine (Cert.LibLastAxisReduce.hostReduce_max_last (scores x) maxStart reducesTo_S32x16x128_S32x16_d2 (by decide) h_S_ t b).trans ?_
  exact congrArg (Finset.fold max (Ideal.ofBits .f32 0xFF800000#32) · Finset.univ) (funext fun s => scores_apply x t b s)

/-- The shift of row (t, b) is the shift of its scores. -/
theorem shift_apply (x : FVec Ideal S32x16x128x1 .f32) (t : Fin 32) (b : Fin 16) :
    shift x (ix2 t b) = Cert.Attn.rowMax (fun s => x (ix4 t b s (0 : Fin 1))) := by
  unfold shift Cert.Attn.rowMax
  rw [maximumf_apply, runMax_apply]
  rfl

/-- Along a row the repeated shift is the row's shift. -/
theorem shiftRows_apply (x : FVec Ideal S32x16x128x1 .f32) (t : Fin 32) (b : Fin 16) (s : Fin 128) :
    shiftRows x (ix3 t b s) = shift x (ix2 t b) := by
  unfold shiftRows
  refine (broadcastInDim_apply _ bcast_S32x16x1_S32x16x128_0_1_2 _ (ix3 t b s) (ix3 t b (0 : Fin 1)) fun a => ?_).trans ?_
  · match a with
    | ⟨0, _⟩ => show t.val = if (32 : Nat) = 1 then 0 else t.val; rw [if_neg (by decide)]
    | ⟨1, _⟩ => show b.val = if (16 : Nat) = 1 then 0 else b.val; rw [if_neg (by decide)]
    | ⟨2, _⟩ => show 0 = if (1 : Nat) = 1 then 0 else s.val; rw [if_pos rfl]
  · refine broadcastInDim_apply _ bcast_S32x16_S32x16x1_0_1 _ (ix3 t b (0 : Fin 1)) (ix2 t b) fun a => ?_
    match a with
    | ⟨0, _⟩ => show t.val = if (32 : Nat) = 1 then 0 else t.val; rw [if_neg (by decide)]
    | ⟨1, _⟩ => show b.val = if (16 : Nat) = 1 then 0 else b.val; rw [if_neg (by decide)]

/-- The exponential at (t, b, s): of the score there less the row's shift. -/
theorem expo_apply (x : FVec Ideal S32x16x128x1 .f32) (t : Fin 32) (b : Fin 16) (s : Fin 128) :
    expo x (ix3 t b s)
      = Ideal.exp (x (ix4 t b s (0 : Fin 1)) - Cert.Attn.rowMax (fun s' => x (ix4 t b s' (0 : Fin 1)))) := by
  show Ideal.exp (scores x (ix3 t b s) - shiftRows x (ix3 t b s)) = _
  rw [scores_apply, shiftRows_apply, shift_apply]

/-- The sum of row (t, b): the start value plus the sum of the row's exponentials. -/
theorem total_apply (x : FVec Ideal S32x16x128x1 .f32) (t : Fin 32) (b : Fin 16) :
    total x (ix2 t b)
      = Ideal.ofBits .f32 0x00000000#32
        + ∑ s : Fin 128, Ideal.exp (x (ix4 t b s (0 : Fin 1)) - Cert.Attn.rowMax (fun s' => x (ix4 t b s' (0 : Fin 1)))) := by
  unfold total
  simp only [Host.reduceAdd, Ideal.hostReduceAdd_def]
  rw [Ideal.hostReduceAdd_single reducesTo_S32x16x128_S32x16_d2 (by decide)]
  refine congrArg (_ + ·) (Finset.sum_congr rfl fun s _ => ?_)
  exact (congrArg (expo x) (Cert.LibLastAxisReduce.lift_last _ t b s)).trans (expo_apply x t b s)

/-- Along a row the repeated sum is the row's sum. -/
theorem totalRows_apply (x : FVec Ideal S32x16x128x1 .f32) (t : Fin 32) (b : Fin 16) (s : Fin 128) :
    totalRows x (ix3 t b s) = total x (ix2 t b) := by
  unfold totalRows
  refine (broadcastInDim_apply _ bcast_S32x16x1_S32x16x128_0_1_2 _ (ix3 t b s) (ix3 t b (0 : Fin 1)) fun a => ?_).trans ?_
  · match a with
    | ⟨0, _⟩ => show t.val = if (32 : Nat) = 1 then 0 else t.val; rw [if_neg (by decide)]
    | ⟨1, _⟩ => show b.val = if (16 : Nat) = 1 then 0 else b.val; rw [if_neg (by decide)]
    | ⟨2, _⟩ => show 0 = if (1 : Nat) = 1 then 0 else s.val; rw [if_pos rfl]
  · refine broadcastInDim_apply _ bcast_S32x16_S32x16x1_0_1 _ (ix3 t b (0 : Fin 1)) (ix2 t b) fun a => ?_
    match a with
    | ⟨0, _⟩ => show t.val = if (32 : Nat) = 1 then 0 else t.val; rw [if_neg (by decide)]
    | ⟨1, _⟩ => show b.val = if (16 : Nat) = 1 then 0 else b.val; rw [if_neg (by decide)]

/-- The quotient at (t, b, s) is the softmax of row (t, b) at s. -/
theorem quot_apply (x : FVec Ideal S32x16x128x1 .f32) (t : Fin 32) (b : Fin 16) (s : Fin 128) :
    quot x (ix3 t b s) = Cert.Attn.softmaxRow (fun s' => x (ix4 t b s' (0 : Fin 1))) s := by
  show Ideal.div (expo x (ix3 t b s)) (totalRows x (ix3 t b s)) = _
  rw [expo_apply, totalRows_apply, total_apply]
  rfl

/-! ## The stretch read at an entry -/

/-- At (t, s, b, u) the stretch gives the softmax, at s, of the scores of target position t in batch entry b. -/
theorem tail_apply (x : FVec Ideal S32x16x128x1 .f32) (t : Fin 32) (s : Fin 128) (b : Fin 16) (u : Fin 1) :
    tail x (ix4 t s b u) = Cert.Attn.softmaxRow (fun s' => x (ix4 t b s' (0 : Fin 1))) s := by
  unfold tail
  refine (broadcastInDim_apply _ bcast_S32x128x16_S32x128x16x1_0_1_2 _ (ix4 t s b u) (ix3 t s b) fun a => ?_).trans ?_
  · match a with
    | ⟨0, _⟩ => show t.val = if (32 : Nat) = 1 then 0 else t.val; rw [if_neg (by decide)]
    | ⟨1, _⟩ => show s.val = if (128 : Nat) = 1 then 0 else s.val; rw [if_neg (by decide)]
    | ⟨2, _⟩ => show b.val = if (16 : Nat) = 1 then 0 else b.val; rw [if_neg (by decide)]
  · refine (transpose_apply [0, 2, 1] (quot x) transposes_S32x16x128_S32x128x16_0_2_1 (ix3 t s b) (ix3 t b s) fun a => ?_).trans ?_
    · match a with
      | ⟨0, _⟩ => rfl
      | ⟨1, _⟩ => rfl
      | ⟨2, _⟩ => rfl
    · exact quot_apply x t b s

end Cert.Attn.Tail

end
-- ==== Proof.TailRun.lean ====
/-
  The kernel program's result buffer, after its last stretch of host operations, holds the row softmax stretch
  (`tail`) of what the second kernel region left in its output buffer.

  The buffer contents after the stretch are a fold of the stretch's operations over the contents before it; read at the
  result buffer, the fold is the composition of the operations that lead to it, each applied to the buffers it reads:
  the drop of the unit axis, the running maximum, the shift, its two repetitions along the rows, the difference, the
  exponential, the row sums, their two repetitions, the quotient, the exchange of axes and the unit axis put back.
-/
import proofs.«130481_j79894981640368_2_alg».proof.Proof.TailValue
import proofs.«130481_j79894981640368_2_alg».proof.Proof.Gen.KernelIdeal.Frame

noncomputable section

namespace Cert.Attn.Tail

open Idealize.ShloMosaic Idealize.ShloMosaic.TcCoe Idealize.SL.Sem Idealize.ShloMosaic.StableHlo
open Cert.KernelIdeal Cert.KernelIdeal.Gen

/-- From any buffer contents `V`, the stretch leaves in the result buffer the softmax stretch of `V`'s scores. -/
theorem after_hostOps2_out (V : Valuation τ sig (Elt Ideal)) :
    (StableHlo.after (hostOps2 (F := Ideal)) V (Proc.devRef .tc main_v25) : S32x128x16x1.Idx → EReal)
      = tail (V (Proc.devRef .tc main_v11)) := by
  after_results
  rfl

/-- The result buffer at the end of the run is the softmax stretch of the second region's output. -/
theorem W5_out (m : (ℓ : Loc nD τ sig) → Buf (Elt Ideal) ℓ) (ρ : Dev nD → PrngReg) (c : Dev nD) :
    (W5 (F := Ideal) m ρ c (Proc.devRef .tc main_v25) : S32x128x16x1.Idx → EReal)
      = tail (W4 (F := Ideal) m ρ c (Proc.devRef .tc main_v11)) :=
  after_hostOps2_out (W4 (F := Ideal) m ρ c)

end Cert.Attn.Tail

end
-- ==== Proof.LibTransposeEntry.lean ====
/-
  A transposed matrix read at an entry.

  The transpose with permutation [1, 0] of a [d, k] matrix is the [k, d] matrix whose entry (j, o) is the operand's entry
  (o, j).  General in the extents and the element type: the form a weight matrix W takes where a program contracts
  against W transposed.
-/
import Idealize.ShloMosaic.Lib.Pipeline.Value
import Idealize.ShloMosaic.Lib.ValueIdx

noncomputable section

namespace Cert.LibTransposeEntry

open Idealize.ShloMosaic Idealize.ShloMosaic.ValueIdx

/-- Entry (j, o) of the transpose is entry (o, j) of the operand. -/
theorem transpose_apply_ix2 {α : Type} {d k : ℕ} (W : (⟨2, ![d, k]⟩ : Shape).Idx → α)
    (h : (⟨2, ![d, k]⟩ : Shape).Transposes [1, 0] ⟨2, ![k, d]⟩) (j : Fin k) (o : Fin d) :
    transpose ⟨2, ![k, d]⟩ [1, 0] W h (ix2 j o) = W (ix2 o j) :=
  transpose_apply [1, 0] W h (ix2 j o) (ix2 o j) (fun b => by
    match b with
    | ⟨0, _⟩ => rfl
    | ⟨1, _⟩ => rfl)

end Cert.LibTransposeEntry

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.EntryMatmul.lean ====
/-
  What the first kernel region leaves in its output array, for any contents V of the buffers at its entry: the region has
  one grid point whose three blocks are the whole arrays, so the output array ends as the body's value of the two whole
  input arrays — at the ideal values, at row p and column f, the sum over k of left (p, k) times right (k, f).
-/
import proofs.«130481_j79894981640368_2_alg».proof.Proof.Gen.KernelIdeal.Frame
import proofs.«130481_j79894981640368_2_alg».proof.Proof.LibMatmulRows
import Idealize.ShloMosaic.Lib.Pipeline.Value
import Idealize.ShloMosaic.Lib.ValueIdx

set_option maxRecDepth 16384

noncomputable section

open scoped BigOperators

namespace Cert.Attn.Entry

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The left operand's block at the one grid point is the whole array. -/
theorem iblk0_0_eq (t : Fin cfg0.N) : iblk0 V c 0 t = V c main_v8 := by
  obtain rfl := fin_N0 t
  have hz' : (fun a => win0_0.index t0_0 a * main_v8.ty.shape.size a) = fun _ => 0 :=
    funext fun a => by fin_cases a <;> decide
  exact Memref.read_access_unit_zero (Elt Ideal) main_v8 hz' (fun a => by rw [congrFun hz' a]; simp) (V c main_v8)

/-- The right operand's block at the one grid point is the whole array. -/
theorem iblk0_1_eq (t : Fin cfg0.N) : iblk0 V c 1 t = V c main_v6 := by
  obtain rfl := fin_N0 t
  have hz' : (fun a => win0_1.index t0_0 a * main_v6.ty.shape.size a) = fun _ => 0 :=
    funext fun a => by fin_cases a <;> decide
  exact Memref.read_access_unit_zero (Elt Ideal) main_v6 hz' (fun a => by rw [congrFun hz' a]; simp) (V c main_v6)

/-- What the one grid point writes back is the whole block of the body's value of the two whole input arrays. -/
theorem flushed0_2_eq (t : Fin cfg0.N) :
    (dat0 V c).flushed 2 t
      = ((cfg0.win 2).blk t).view.read (Elt Ideal) (k0_pay1 (F := Ideal) (V c main_v8) (V c main_v6)) := by
  show (cfg0.win 2).cut (grid0.coords t) ((dat0 V c).after 2 t) = _
  rw [after0_2]
  unfold out0_2
  rw [View.canon_unit_zero hz2]
  simp only [View.ld_unit_zero (S := S2048x1024) hz2, View.ld_unit_zero (S := S1024x1024) hz2]
  rw [iblk0_0_eq, iblk0_1_eq]
  obtain rfl := fin_N0 t
  have hz' : (fun a => win0_2.index t0_0 a * main_v9.ty.shape.size a) = fun _ => 0 :=
    funext fun a => by fin_cases a <;> decide
  exact (Memref.read_access_unit_zero (Elt Ideal) main_v9 hz' (fun a => by rw [congrFun hz' a]; simp) _).symm

/-- The output array of the first region after its run. -/
theorem arr0_2 : (dat0 V c).arrAt 2 cfg0.N = k0_pay1 (F := Ideal) (V c main_v8) (V c main_v6) :=
  (dat0 V c).arrAt_eq_of_cover 2 _ (fun t _ => flushed0_2_eq V c t) fun i =>
    ⟨t0_0, rfl, by
      show i ∈ ((View.whole main_v9).slice (win0_2.rect t0_0)).set
      rw [View.set_slice_whole, Rect.mem_set_unit]
      intro a
      have h0 : (i 0 : Nat) < 2048 := (i 0).isLt
      have h1 : (i 1 : Nat) < 1024 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 2048 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 1024 from by decide +kernel]; omega⟩

/-- The body's value at row p and column f: the matrix product of the two arrays, the narrowing conversion the identity
    on the extended reals. -/
theorem k0_pay1_apply (X : FVec Ideal S2048x1024 .bf16) (Y : FVec Ideal S1024x1024 .bf16) (p : Fin 2048) (f : Fin 1024) :
    k0_pay1 (F := Ideal) X Y (ix2 p f) = ∑ k : Fin 1024, X (ix2 p k) * Y (ix2 k f) := by
  unfold k0_pay1
  show matmul dot_S2048x1024_S1024x1024_S2048x1024_1_0_0_1_n_n none
      (shapeCast S2048x1024 X shapeCasts_S2048x1024_S2048x1024) (shapeCast S1024x1024 Y shapeCasts_S1024x1024_S1024x1024)
      (constant S2048x1024 .f32 0x00000000#32) (ix2 p f) = _
  rw [shapeCast_self, shapeCast_self]
  exact Cert.LibMatmulRows.matmul_rows_apply (n := 2048) (K := 1024) (F := 1024)
    dot_S2048x1024_S1024x1024_S2048x1024_1_0_0_1_n_n rfl rfl (fun _ _ => rfl) (fun _ _ => rfl) (fun _ _ => rfl)
    (fun _ _ => rfl) none X Y p f

end Cert.Attn.Entry

end
-- ==== Proof.Entry.lean ====
/-
  What the second kernel region finds in its five input arrays, read at an index from the launch contents of the
  program's arguments: the target states unchanged, the source projection as the sum the specification names, the
  weight's target half transposed, the bias as a row, the scoring row unchanged.
-/
import proofs.«130481_j79894981640368_2_alg».proof.Proof.Spec
import proofs.«130481_j79894981640368_2_alg».proof.Proof.Gen.KernelIdeal.Frame
import proofs.«130481_j79894981640368_2_alg».proof.Proof.LibTransposeEntry
import proofs.«130481_j79894981640368_2_alg».proof.Proof.LibBatchBlocks
import proofs.«130481_j79894981640368_2_alg».proof.Proof.EntryMatmul
import Idealize.ShloMosaic.Lib.Pipeline.Value
import Idealize.ShloMosaic.Lib.ValueIdx

set_option maxRecDepth 16384

noncomputable section

open scoped BigOperators

namespace Cert.Attn.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- A buffer the host operation between the two regions does not write holds at the second region's entry what
    it held at the first region's exit. -/
theorem W3_eq_W2 (b : Ref sig .tc) (hb : b ≠ main_v10) :
    W3 (F := Ideal) m ρ c (Proc.devRef .tc b) = W2 (F := Ideal) m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- A buffer that is neither an array of the first region nor the reshape's result holds at the second region's
    entry what the first stretch of host operations left. -/
theorem W3_eq_W1 (b : Ref sig .tc) (hb : b ≠ main_v10) (hw : ∀ w, Pipeline.arrRef spec0 w ≠ b) :
    W3 (F := Ideal) m ρ c (Proc.devRef .tc b) = W1 (F := Ideal) m ρ c (Proc.devRef .tc b) :=
  (W3_eq_W2 m ρ c b hb).trans (W2_of_ne m ρ c b hw)

/-! ## The target states -/

/-- After the first stretch the converted target states are the argument: the conversion is the identity on the
    extended reals. -/
theorem W1_main_v0 : W1 (F := Ideal) m ρ c (Proc.devRef .tc main_v0)
    = (truncf .bf16 (m ((c : Thread nD τ).loc main_arg0)) bitsLt_bf16_f32 : FVec Ideal S32x16x1024 .bf16) := by
  show StableHlo.after hostOps0 _ (Proc.devRef .tc main_v0) = _
  after_results

theorem entry_h (t : Fin 32) (b : Fin 16) (k : Fin 1024) :
    (V3 (F := Ideal) m ρ c main_v0 : S32x16x1024.Idx → EReal) (ix3 t b k)
      = (m ((c : Thread nD τ).loc main_arg0) : S32x16x1024.Idx → EReal) (ix3 t b k) := by
  show W3 (F := Ideal) m ρ c (Proc.devRef .tc main_v0) (ix3 t b k) = _
  rw [W3_eq_W1 m ρ c main_v0 (by decide) (by decide), W1_main_v0]
  rfl

/-! ## The scoring row -/

theorem entry_va : V3 (F := Ideal) m ρ c main_arg4 = m ((c : Thread nD τ).loc main_arg4) := by
  show W3 (F := Ideal) m ρ c (Proc.devRef .tc main_arg4) = _
  rw [W3_eq_W1 m ρ c main_arg4 (by decide) (by decide)]
  exact StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The bias -/

/-- After the first stretch the bias row is the bias vector reshaped. -/
theorem W1_main_v7 : W1 (F := Ideal) m ρ c (Proc.devRef .tc main_v7)
    = shapeCast S1x1024 (m ((c : Thread nD τ).loc main_arg3)) shapeCasts_S1024_S1x1024 := by
  show StableHlo.after hostOps0 _ (Proc.devRef .tc main_v7) = _
  after_results
  rfl

theorem entry_bias (o : Fin 1024) :
    (V3 (F := Ideal) m ρ c main_v7 : S1x1024.Idx → EReal) (ix2 (0 : Fin 1) o)
      = (m ((c : Thread nD τ).loc main_arg3) : S1024.Idx → EReal) (ix1 o) := by
  show W3 (F := Ideal) m ρ c (Proc.devRef .tc main_v7) (ix2 (0 : Fin 1) o) = _
  rw [W3_eq_W1 m ρ c main_v7 (by decide) (by decide), W1_main_v7]
  refine shapeCast_apply (s := S1024) (t := S1x1024) _ _ _ _ ?_
  show (S1024.rowMajor (ix1 o)).val = (S1x1024.rowMajor (ix2 (0 : Fin 1) o)).val
  rw [Shape.rowMajor_val_one, Shape.rowMajor_val_two]
  show o.val = 0 * 1024 + o.val
  omega

/-! ## The weight's target half -/

/-- After the first stretch: the first 1024 rows of the transposed weight. -/
theorem W1_main_v5 : W1 (F := Ideal) m ρ c (Proc.devRef .tc main_v5)
    = extractStridedSlice S1024x1024 ![0, 0]
        (truncf .bf16 (transpose S2048x1024 [1, 0] (m ((c : Thread nD τ).loc main_arg2)) transposes_S1024x2048_S2048x1024_1_0)
          bitsLt_bf16_f32 : FVec Ideal S2048x1024 .bf16) slices_S2048x1024_S1024x1024_0_0 := by
  show StableHlo.after hostOps0 _ (Proc.devRef .tc main_v5) = _
  after_results

theorem entry_wt (k : Fin 1024) (o : Fin 1024) :
    (V3 (F := Ideal) m ρ c main_v5 : S1024x1024.Idx → EReal) (ix2 k o)
      = (m ((c : Thread nD τ).loc main_arg2) : S1024x2048.Idx → EReal) (ix2 o (Cert.Attn.lo k)) := by
  show W3 (F := Ideal) m ρ c (Proc.devRef .tc main_v5) (ix2 k o) = _
  rw [W3_eq_W1 m ρ c main_v5 (by decide) (by decide), W1_main_v5]
  refine (extractStridedSlice_apply _ _ _ (ix2 k o) (ix2 (Cert.Attn.lo k) o) (fun a => by
    match a with
    | ⟨0, _⟩ => show k.val = 0 + k.val; omega
    | ⟨1, _⟩ => show o.val = 0 + o.val; omega)).trans ?_
  exact Cert.LibTransposeEntry.transpose_apply_ix2 _ _ _ _

/-! ## The source projection -/

/-- After the first stretch: the source encodings, batch entry first, as a matrix of 16 · 128 rows. -/
theorem W1_main_v8 : W1 (F := Ideal) m ρ c (Proc.devRef .tc main_v8)
    = shapeCast S2048x1024
        (truncf .bf16 (transpose S16x128x1024 [1, 0, 2] (m ((c : Thread nD τ).loc main_arg1)) transposes_S128x16x1024_S16x128x1024_1_0_2)
          bitsLt_bf16_f32 : FVec Ideal S16x128x1024 .bf16) shapeCasts_S16x128x1024_S2048x1024 := by
  show StableHlo.after hostOps0 _ (Proc.devRef .tc main_v8) = _
  after_results
  rfl

/-- After the first stretch: the last 1024 rows of the transposed weight. -/
theorem W1_main_v6 : W1 (F := Ideal) m ρ c (Proc.devRef .tc main_v6)
    = extractStridedSlice S1024x1024 ![1024, 0]
        (truncf .bf16 (transpose S2048x1024 [1, 0] (m ((c : Thread nD τ).loc main_arg2)) transposes_S1024x2048_S2048x1024_1_0)
          bitsLt_bf16_f32 : FVec Ideal S2048x1024 .bf16) slices_S2048x1024_S1024x1024_1024_0 := by
  show StableHlo.after hostOps0 _ (Proc.devRef .tc main_v6) = _
  after_results

/-- Row b · 128 + s of the left operand of the first region's product is the source encoding (s, b). -/
theorem V1_main_v8_apply (b : Fin 16) (s : Fin 128) (k : Fin 1024) (p : Fin 2048) (hp : p.val = b.val * 128 + s.val) :
    (V1 (F := Ideal) m ρ c main_v8 : S2048x1024.Idx → EReal) (ix2 p k)
      = (m ((c : Thread nD τ).loc main_arg1) : S128x16x1024.Idx → EReal) (ix3 s b k) := by
  show W1 (F := Ideal) m ρ c (Proc.devRef .tc main_v8) (ix2 p k) = _
  rw [W1_main_v8]
  refine (Cert.LibBatchBlocks.shapeCast_merge01_apply (a := 16) (b := 128) (c := 1024) (n := 2048) _ _ p b s k hp).trans ?_
  exact transpose_apply [1, 0, 2] _ transposes_S128x16x1024_S16x128x1024_1_0_2 (ix3 b s k) (ix3 s b k) (fun a => by
    match a with
    | ⟨0, _⟩ => rfl
    | ⟨1, _⟩ => rfl
    | ⟨2, _⟩ => rfl)

/-- Row k of the right operand of the first region's product is column 1024 + k of the weight. -/
theorem V1_main_v6_apply (k : Fin 1024) (o : Fin 1024) :
    (V1 (F := Ideal) m ρ c main_v6 : S1024x1024.Idx → EReal) (ix2 k o)
      = (m ((c : Thread nD τ).loc main_arg2) : S1024x2048.Idx → EReal) (ix2 o (Cert.Attn.hi k)) := by
  show W1 (F := Ideal) m ρ c (Proc.devRef .tc main_v6) (ix2 k o) = _
  rw [W1_main_v6]
  refine (extractStridedSlice_apply _ _ _ (ix2 k o) (ix2 (Cert.Attn.hi k) o) (fun a => by
    match a with
    | ⟨0, _⟩ => show 1024 + k.val = 1024 + k.val; rfl
    | ⟨1, _⟩ => show o.val = 0 + o.val; omega)).trans ?_
  exact Cert.LibTransposeEntry.transpose_apply_ix2 _ _ _ _

/-- At the second region's entry the source projection is the first region's output array, reshaped. -/
theorem W3_main_v10 : W3 (F := Ideal) m ρ c (Proc.devRef .tc main_v10)
    = shapeCast S16x128x1024 (k0_pay1 (F := Ideal) (V1 (F := Ideal) m ρ c main_v8) (V1 (F := Ideal) m ρ c main_v6))
        shapeCasts_S2048x1024_S16x128x1024 := by
  have e : W2 (F := Ideal) m ρ c (Proc.devRef .tc main_v9)
      = k0_pay1 (F := Ideal) (V1 (F := Ideal) m ρ c main_v8) (V1 (F := Ideal) m ρ c main_v6) :=
    (W2_arr m ρ c 2).trans (arr0_2 (V1 (F := Ideal) m ρ) c)
  show StableHlo.after hostOps1 _ (Proc.devRef .tc main_v10) = _
  after_results
  rw [e]
  rfl

theorem entry_srcproj (b : Fin 16) (s : Fin 128) (o : Fin 1024) :
    (V3 (F := Ideal) m ρ c main_v10 : S16x128x1024.Idx → EReal) (ix3 b s o)
      = Cert.Attn.sproj (m ((c : Thread nD τ).loc main_arg1)) (m ((c : Thread nD τ).loc main_arg2)) s b o := by
  show W3 (F := Ideal) m ρ c (Proc.devRef .tc main_v10) (ix3 b s o) = _
  rw [W3_main_v10]
  refine (Cert.LibBatchBlocks.shapeCast_split01_apply (a := 16) (b := 128) (c := 1024) (n := 2048) _ _
    ⟨b.val * 128 + s.val, by have := b.isLt; have := s.isLt; omega⟩ b s o rfl).trans ?_
  refine (k0_pay1_apply _ _ _ _).trans ?_
  show (_ : EReal) = _
  unfold Cert.Attn.sproj
  refine Finset.sum_congr rfl fun k _ => ?_
  rw [V1_main_v8_apply m ρ c b s k _ rfl, V1_main_v6_apply]

end Cert.Attn.Entry

end
-- ==== Proof.LibRank4Spread.lean ====
/-
  Rank-4 blocks [a, b, d, c] read at explicit coordinates: what a kernel meets when it adds a matrix per (i, j) and a
  matrix per (j, r) over a common feature axis k by inserting unit axes and broadcasting, then sums over k.

  * inserting a unit axis before the last one by a shape cast, [a, b, c] → [a, b, 1, c], keeps the entries;
  * the three broadcasts into [a, b, d, c]: of [a, b, 1, c] (constant along r), of [1, b, d, c] (constant along i) and
    of one row [1, 1, 1, c] (constant along i, j and r);
  * a row [1, c] cast to [1, 1, 1, c], and a block [a, b, d] given a trailing unit axis [a, b, d, 1];
  * at the ideal values, the sum of an [a, b, d, c] block over its last axis as the sum over k.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRank4Spread

open Idealize.ShloMosaic Idealize.ShloMosaic.ValueIdx

variable {α : Type}

/-- An [a, b, c] array cast to [a, b, 1, c] reads, at (i, j, u, k), the operand at (i, j, k). -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- An [a, b, d] block cast to [a, b, d, 1] reads, at (i, j, r, u), the operand at (i, j, r). -/
theorem shapeCast_abd_abd1_apply {a b d : ℕ} (x : (⟨3, ![a, b, d]⟩ : Shape).Idx → α)
    (h : (⟨3, ![a, b, d]⟩ : Shape).ShapeCasts ⟨4, ![a, b, d, 1]⟩) (i : Fin a) (j : Fin b) (r : Fin d) (u : Fin 1) :
    shapeCast ⟨4, ![a, b, d, 1]⟩ x h (ix4 i j r u) = x (ix3 i j r) :=
  shapeCast_apply x h _ _ (by
    have hu : u.val = 0 := by omega
    rw [Shape.rowMajor_val_three, Shape.rowMajor_val_four]
    show (i.val * b + j.val) * d + r.val = ((i.val * b + j.val) * d + r.val) * 1 + u.val
    rw [hu, Nat.mul_one, Nat.add_zero])

/-- A row [1, c] cast to [1, 1, 1, c] reads, at (u, v, w, k), the row's entry k. -/
theorem shapeCast_1c_111c_apply {c : ℕ} (x : (⟨2, ![1, c]⟩ : Shape).Idx → α)
    (h : (⟨2, ![1, c]⟩ : Shape).ShapeCasts ⟨4, ![1, 1, 1, c]⟩) (u v w : Fin 1) (k : Fin c) :
    shapeCast ⟨4, ![1, 1, 1, c]⟩ x h (ix4 u v w k) = x (ix2 (0 : Fin 1) k) :=
  shapeCast_apply x h _ _ (by
    have hu : u.val = 0 := by omega
    have hv : v.val = 0 := by omega
    have hw : w.val = 0 := by omega
    rw [Shape.rowMajor_val_two, Shape.rowMajor_val_four]
    show (0 : ℕ) * c + k.val = ((u.val * 1 + v.val) * 1 + w.val) * c + k.val
    rw [hu, hv, hw])

/-- An [a, b, 1, c] block broadcast to [a, b, d, c] reads, at (i, j, r, k), the block at (i, j, 0, k). -/
theorem broadcastTo_ab1c_abdc_apply {a b d c : ℕ} (v : (⟨4, ![a, b, 1, c]⟩ : Shape).Idx → α)
    (h : (⟨4, ![a, b, 1, c]⟩ : Shape).Broadcasts ⟨4, ![a, b, d, c]⟩) (i : Fin a) (j : Fin b) (r : Fin d) (k : Fin c) :
    broadcastTo ⟨4, ![a, b, d, c]⟩ v h (ix4 i j r k) = v (ix4 i j (0 : Fin 1) k) := by
  refine broadcastTo_apply v h (ix4 i j r k) (ix4 i j (0 : Fin 1) k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ =>
    show k.val = if c = 1 then 0 else k.val
    split
    · have := k.isLt; omega
    · rfl

/-- A [1, b, d, c] block broadcast to [a, b, d, c] reads, at (i, j, r, k), the block at (0, j, r, k). -/
theorem broadcastTo_1bdc_abdc_apply {a b d c : ℕ} (v : (⟨4, ![1, b, d, c]⟩ : Shape).Idx → α)
    (h : (⟨4, ![1, b, d, c]⟩ : Shape).Broadcasts ⟨4, ![a, b, d, c]⟩) (i : Fin a) (j : Fin b) (r : Fin d) (k : Fin c) :
    broadcastTo ⟨4, ![a, b, d, c]⟩ v h (ix4 i j r k) = v (ix4 (0 : Fin 1) j r k) := by
  refine broadcastTo_apply v h (ix4 i j r k) (ix4 (0 : Fin 1) j r k) fun ax => ?_
  match ax with
  | ⟨0, _⟩ => rfl
  | ⟨1, _⟩ =>
    show j.val = if b = 1 then 0 else j.val
    split
    · have := j.isLt; omega
    · rfl
  | ⟨2, _⟩ =>
    show r.val = if d = 1 then 0 else r.val
    split
    · have := r.isLt; omega
    · rfl
  | ⟨3, _⟩ =>
    show k.val = if c = 1 then 0 else k.val
    split
    · have := k.isLt; omega
    · rfl

/-- One row [1, 1, 1, c] broadcast to [a, b, d, c] reads, at (i, j, r, k), the row's entry k. -/
theorem broadcastTo_111c_abdc_apply {a b d c : ℕ} (v : (⟨4, ![1, 1, 1, c]⟩ : Shape).Idx → α)
    (h : (⟨4, ![1, 1, 1, c]⟩ : Shape).Broadcasts ⟨4, ![a, b, d, c]⟩) (i : Fin a) (j : Fin b) (r : Fin d) (k : Fin c) :
    broadcastTo ⟨4, ![a, b, d, c]⟩ v h (ix4 i j r k) = v (ix4 (0 : Fin 1) (0 : Fin 1) (0 : Fin 1) k) := by
  refine broadcastTo_apply v h (ix4 i j r k) (ix4 (0 : Fin 1) (0 : Fin 1) (0 : Fin 1) k) fun ax => ?_
  match ax with
  | ⟨0, _⟩ => rfl
  | ⟨1, _⟩ => rfl
  | ⟨2, _⟩ => rfl
  | ⟨3, _⟩ =>
    show k.val = if c = 1 then 0 else k.val
    split
    · have := k.isLt; omega
    · rfl

/-- At the ideal values the sum of an [a, b, d, c] block over its last axis reads, at (i, j, r), the sum over k of the
    block at (i, j, r, k). -/
theorem sum_axis3_apply {a b d c : ℕ} (src : FVec Ideal ⟨4, ![a, b, d, c]⟩ .f32)
    (h : Shape.Reduces ⟨4, ![a, b, d, c]⟩ [3] ⟨3, ![a, b, d]⟩) (hφ : FKind.Formats .f32)
    (hacc : (0x00000000#32 : BitVec 32) = FKind.add.neutral .f32 hφ) (i : Fin a) (j : Fin b) (r : Fin d) :
    multiReduction .add [3] ⟨3, ![a, b, d]⟩ src 0x00000000#32 h hφ hacc (ix3 i j r) = ∑ k : Fin c, src (ix4 i j r k) := by
  refine (Ideal.multiReduction_add_single src _ h hφ hacc (ix3 i j r)).trans ?_
  refine Finset.sum_congr rfl fun k _ => ?_
  exact congrArg src (funext fun ax => Fin.ext (by
    match ax with
    | ⟨0, _⟩ => rfl
    | ⟨1, _⟩ => rfl
    | ⟨2, _⟩ => rfl
    | ⟨3, _⟩ => rfl))

end Cert.LibRank4Spread

end
-- ==== Proof.Chunk.lean ====
/-
  One chunk of the score accumulation, at an index.

  At a grid point the second kernel holds a block of 16 target positions (all 16 batch entries, all 1024 input
  features), the block of the source projections for one tile of 256 output features (all 16 batch entries, all 128
  source positions), and the same tile of the target weight, the bias row and the scoring row.  It walks the 128
  source positions in eight chunks of 16; for the chunk starting at source position q it adds to the current
  [16, 16, 16, 1] slice of the output block, at (tt, b, r), the partial score

      sum over the tile's features o of  tanh ((proj tt b o + srcproj (b, q + r, o)) + bias o) * va o,
      proj tt b o  =  sum over the input features k of  h (tt, b, k) * wt (k, o).

  The partial score is read off the body's vector operations: the target projection is given a unit source axis, the
  source chunk a unit target axis, both are broadcast over [16, 16, 16, 256] and added, the bias row and the scoring row
  are broadcast from [1, 1, 1, 256], and the last axis is summed.
-/
import proofs.«130481_j79894981640368_2_alg».proof.Proof.Gen.KernelIdeal.Skeleton
import proofs.«130481_j79894981640368_2_alg».proof.Proof.LibRank4Spread
import proofs.«130481_j79894981640368_2_alg».proof.Proof.LibMatmulRows
import proofs.«130481_j79894981640368_2_alg».proof.Proof.LibBatchBlocks
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Attn.Chunk

open Idealize.ShloMosaic Idealize.ShloMosaic.ValueIdx Cert.KernelIdeal Cert.KernelIdeal.Gen Cert.LibRank4Spread

/-- The projection of target position tt of the block, batch entry b, on feature o of the tile. -/
def proj (x0 : FVec Ideal S16x16x1024 .bf16) (x2 : FVec Ideal S1024x256 .bf16) (tt b : Fin 16) (o : Fin 256) : EReal :=
  ∑ k : Fin 1024, x0 (ix3 tt b k) * x2 (ix2 k o)

/-- The tile's share of the score of target position tt against source position s in batch entry b. -/
def tileSum (x0 : FVec Ideal S16x16x1024 .bf16) (x1 : FVec Ideal S16x128x256 .bf16) (x2 : FVec Ideal S1024x256 .bf16)
    (x3 x4 : FVec Ideal S1x256 .f32) (tt b : Fin 16) (s : Fin 128) : EReal :=
  ∑ o : Fin 256, Ideal.tanh ((proj x0 x2 tt b o + x1 (ix3 b s o)) + x3 (ix2 (0 : Fin 1) o)) * x4 (ix2 (0 : Fin 1) o)

/-- The block's target projection: the [16, 16, 1024] block as a 256-row matrix times the weight tile, the rows split
    back into (target position, batch entry). -/
theorem pay3_apply (x0 : FVec Ideal S16x16x1024 .bf16) (x2 : FVec Ideal S1024x256 .bf16) (tt b : Fin 16) (o : Fin 256) :
    k1_pay3 (F := Ideal) x0 x2 (ix3 tt b o) = proj x0 x2 tt b o := by
  have hp : (⟨tt.val * 16 + b.val, by have := tt.isLt; have := b.isLt; omega⟩ : Fin 256).val = tt.val * 16 + b.val := rfl
  unfold k1_pay3
  refine (Cert.LibBatchBlocks.shapeCast_split01_apply _ _ _ tt b o hp).trans ?_
  refine (Cert.LibMatmulRows.matmul_rows_apply dot_S256x1024_S1024x256_S256x256_1_0_0_1_n_n rfl rfl
    (fun _ _ => rfl) (fun _ _ => rfl) (fun _ _ => rfl) (fun _ _ => rfl) none _ _ _ o).trans ?_
  refine Finset.sum_congr rfl fun k _ => ?_
  refine congrArg₂ (· * ·) ?_ ?_
  · refine (Cert.LibBatchBlocks.shapeCast_merge01_apply _ _ _ tt b k hp).trans ?_
    exact congrFun (shapeCast_self x0 _) _
  · exact congrFun (shapeCast_self x2 _) _

/-- The bias row as the body spreads it: entry o of the [1, 256] block. -/
theorem pay4_apply (x3 : FVec Ideal S1x256 .f32) (u v w : Fin 1) (o : Fin 256) :
    k1_pay4 (F := Ideal) x3 (ix4 u v w o) = x3 (ix2 (0 : Fin 1) o) := by
  unfold k1_pay4
  refine (shapeCast_1c_111c_apply _ _ u v w o).trans ?_
  exact congrFun (shapeCast_self x3 _) _

/-- The scoring row likewise. -/
theorem pay5_apply (x4 : FVec Ideal S1x256 .f32) (u v w : Fin 1) (o : Fin 256) :
    k1_pay5 (F := Ideal) x4 (ix4 u v w o) = x4 (ix2 (0 : Fin 1) o) := by
  unfold k1_pay5
  exact shapeCast_1c_111c_apply _ _ u v w o

/-- A chunk's partial scores from the spread projection v6, bias row v9, scoring row v11 and source chunk src: at
    (tt, b, r) the sum over the tile's features of tanh ((v6 (tt, b, o) + src (b, r, o)) + v9 o) * v11 o. -/
theorem partial_apply (v6 : FVec Ideal S16x16x256 .f32) (v9 v11 : FVec Ideal S1x1x1x256 .f32)
    (src : FVec Ideal S16x16x256 .bf16) (tt b r : Fin 16) (u : Fin 1) :
    k1_pay11 (F := Ideal) v6 v9 v11 src (ix4 tt b r u)
      = ∑ o : Fin 256, Ideal.tanh ((v6 (ix3 tt b o) + src (ix3 b r o)) + v9 (ix4 (0 : Fin 1) (0 : Fin 1) (0 : Fin 1) o))
          * v11 (ix4 (0 : Fin 1) (0 : Fin 1) (0 : Fin 1) o) := by
  unfold k1_pay11
  refine (shapeCast_abd_abd1_apply _ _ tt b r u).trans ?_
  refine (sum_axis3_apply _ _ _ _ tt b r).trans ?_
  refine Finset.sum_congr rfl fun o _ => ?_
  show Ideal.tanh ((_ + _) + _) * _ = Ideal.tanh ((_ + _) + _) * _
  refine congrArg₂ (· * ·) (congrArg Ideal.tanh (congrArg₂ (· + ·) (congrArg₂ (· + ·) ?_ ?_) ?_)) ?_
  · exact (broadcastTo_ab1c_abdc_apply _ _ tt b r o).trans (shapeCast_abc_ab1c_apply v6 _ tt b (0 : Fin 1) o)
  · refine (broadcastTo_1bdc_abdc_apply _ _ tt b r o).trans ?_
    refine (shapeCast_abc_1abc_apply _ _ (0 : Fin 1) b r o).trans ?_
    exact congrFun (shapeCast_self src _) _
  · exact broadcastTo_111c_abdc_apply v9 _ tt b r o
  · exact broadcastTo_111c_abdc_apply v11 _ tt b r o

/-- The store of the chunk at source position q: what it adds to the current slice cur, at the slice's index x, is
    the tile's share of the score at the block index the slice's rectangle places x at. -/
theorem piece (q : ℕ)
    (inb7 : ∀ a, (![0, 0, q, 0] : Fin 4 → ℕ) a + (![16, 16, 16, 1] : Fin 4 → ℕ) a ≤ S16x16x128x1.size a)
    (inb3 : ∀ a, (![0, q, 0] : Fin 3 → ℕ) a + (![16, 16, 256] : Fin 3 → ℕ) a ≤ S16x128x256.size a)
    (x0 : FVec Ideal S16x16x1024 .bf16) (x1 : FVec Ideal S16x128x256 .bf16) (x2 : FVec Ideal S1024x256 .bf16)
    (x3 x4 : FVec Ideal S1x256 .f32) (cur : FVec Ideal S16x16x16x1 .f32) (x : S16x16x16x1.Idx) :
    addf (shapeCast S16x16x16x1 cur shapeCasts_S16x16x16x1_S16x16x16x1)
        (k1_pay11 (F := Ideal) (k1_pay3 x0 x2) (k1_pay4 x3) (k1_pay5 x4)
          (View.ld x1 (Rect.unit (s := S16x128x256) ![0, q, 0] ![16, 16, 256] inb3))) x
      = cur x + tileSum x0 x1 x2 x3 x4
          ((Rect.unit (s := S16x16x128x1) ![0, 0, q, 0] ![16, 16, 16, 1] inb7).emb x 0)
          ((Rect.unit (s := S16x16x128x1) ![0, 0, q, 0] ![16, 16, 16, 1] inb7).emb x 1)
          ((Rect.unit (s := S16x16x128x1) ![0, 0, q, 0] ![16, 16, 16, 1] inb7).emb x 2) := by
  obtain ⟨tt, b, r, u, rfl⟩ : ∃ (tt b r : Fin 16) (u : Fin 1), x = ix4 tt b r u := ⟨x 0, x 1, x 2, x 3, eq_ix4 x⟩
  have key : ∀ (T B : Fin 16) (S : Fin 128), T = tt → B = b → S.val = q + r.val →
      addf (shapeCast S16x16x16x1 cur shapeCasts_S16x16x16x1_S16x16x16x1)
        (k1_pay11 (F := Ideal) (k1_pay3 x0 x2) (k1_pay4 x3) (k1_pay5 x4)
          (View.ld x1 (Rect.unit (s := S16x128x256) ![0, q, 0] ![16, 16, 256] inb3))) (ix4 tt b r u)
      = cur (ix4 tt b r u) + tileSum x0 x1 x2 x3 x4 T B S := by
    intro T B S hT hB hS
    subst hT hB
    show shapeCast S16x16x16x1 cur shapeCasts_S16x16x16x1_S16x16x16x1 (ix4 T B r u) + _ = _
    rw [shapeCast_self, partial_apply]
    unfold tileSum
    refine congrArg (cur (ix4 T B r u) + ·) (Finset.sum_congr rfl fun o _ => ?_)
    rw [pay3_apply, pay4_apply, pay5_apply]
    refine congrArg (fun z => Ideal.tanh ((proj x0 x2 T B o + z) + x3 (ix2 (0 : Fin 1) o)) * x4 (ix2 (0 : Fin 1) o)) ?_
    show x1 _ = x1 _
    refine congrArg x1 (funext fun a => Fin.ext ?_)
    match a with
    | ⟨0, _⟩ => show 0 + 1 * B.val = B.val; omega
    | ⟨1, _⟩ => show q + 1 * r.val = S.val; omega
    | ⟨2, _⟩ => show 0 + 1 * o.val = o.val; omega
  exact key _ _ _ (Fin.ext (by show 0 + 1 * tt.val = tt.val; omega)) (Fin.ext (by show 0 + 1 * b.val = b.val; omega))
    (by show q + 1 * r.val = q + r.val; omega)

/-! The body's eight stores spell the same sum three ways (the cut of the body into parts): the partial score and the
    addition in one payload, or the partial score as a value of its own. -/

variable {F : FTy → Type} [FloatOps F]

theorem pay2_eq (v6 : FVec F S16x16x256 .f32) (v9 v11 : FVec F S1x1x1x256 .f32) (src : Vec F S16x16x256 .bf16) (cur : Vec F S16x16x16x1 .f32) :
    k1_pay2 v6 v9 v11 src cur = addf (shapeCast S16x16x16x1 cur shapeCasts_S16x16x16x1_S16x16x16x1) (k1_pay11 v6 v9 v11 src) := rfl
theorem pay9_eq (v6 : FVec F S16x16x256 .f32) (v9 v11 : FVec F S1x1x1x256 .f32) (src : Vec F S16x16x256 .bf16) (cur : Vec F S16x16x16x1 .f32) :
    k1_pay9 v6 v9 v11 src cur = addf (shapeCast S16x16x16x1 cur shapeCasts_S16x16x16x1_S16x16x16x1) (k1_pay11 v6 v9 v11 src) := rfl
theorem pay10_eq (v6 : FVec F S16x16x256 .f32) (v9 v11 : FVec F S1x1x1x256 .f32) (src : Vec F S16x16x256 .bf16) (cur : Vec F S16x16x16x1 .f32) :
    k1_pay10 v6 v9 v11 src cur = addf (shapeCast S16x16x16x1 cur shapeCasts_S16x16x16x1_S16x16x16x1) (k1_pay11 v6 v9 v11 src) := rfl
theorem pay13_eq (v6 : FVec F S16x16x256 .f32) (v9 v11 : FVec F S1x1x1x256 .f32) (src : Vec F S16x16x256 .bf16) (cur : Vec F S16x16x16x1 .f32) :
    k1_pay13 v6 v9 v11 src cur = addf (shapeCast S16x16x16x1 cur shapeCasts_S16x16x16x1_S16x16x16x1) (k1_pay11 v6 v9 v11 src) := rfl
theorem pay14_eq (v6 : FVec F S16x16x256 .f32) (v9 v11 : FVec F S1x1x1x256 .f32) (src : Vec F S16x16x256 .bf16) (cur : Vec F S16x16x16x1 .f32) :
    k1_pay14 v6 v9 v11 src cur = addf (shapeCast S16x16x16x1 cur shapeCasts_S16x16x16x1_S16x16x16x1) (k1_pay11 v6 v9 v11 src) := rfl
theorem pay1_eq (p : FVec F S16x16x16x1 .f32) (cur : Vec F S16x16x16x1 .f32) :
    k1_pay1 p cur = addf (shapeCast S16x16x16x1 cur shapeCasts_S16x16x16x1_S16x16x16x1) p := rfl
theorem pay12_eq (p : FVec F S16x16x16x1 .f32) (cur : Vec F S16x16x16x1 .f32) :
    k1_pay12 p cur = addf (shapeCast S16x16x16x1 cur shapeCasts_S16x16x16x1_S16x16x16x1) p := rfl
theorem pay8_eq (p : FVec F S16x16x16x1 .f32) (cur : Vec F S16x16x16x1 .f32) :
    k1_pay8 p cur = addf (shapeCast S16x16x16x1 cur shapeCasts_S16x16x16x1_S16x16x16x1) p := rfl
theorem pay15_eq (v6 : FVec F S16x16x256 .f32) (v9 v11 : FVec F S1x1x1x256 .f32) (src : Vec F S16x16x256 .bf16) :
    k1_pay15 v6 v9 v11 src = k1_pay11 v6 v9 v11 src := rfl
theorem pay7_eq (v0 : Vec F S16x16x1024 .bf16) (v2 : Vec F S1024x256 .bf16) (v7 v10 : Vec F S1x256 .f32) (v20 : Vec F S16x16x256 .bf16) :
    k1_pay7 v0 v2 v7 v10 v20 = k1_pay11 (k1_pay3 v0 v2) (k1_pay4 v7) (k1_pay5 v10) v20 := rfl

end Cert.Attn.Chunk

end
-- ==== Proof.LibCanonPrefix.lean ====
/-
  The contents a list of stores leaves, where an initial stretch of the list already covers.

  The contents left by a list of stores (last store first) at an index are the payload of the first store in the list
  whose rectangle holds the index.  So where the stores of an initial stretch of the list cover an index, the stores
  after the stretch do not matter there: a buffer first filled whole and then overwritten slice by slice, the slices
  tiling it, holds what the slice stores left.
-/
import Idealize.ShloMosaic.Lib.Pipeline.FrameBody

noncomputable section

namespace Cert.LibCanonPrefix

open Idealize.ShloMosaic

variable {Val : EltTy → Type} [∀ e, Nonempty (Val e)] {s : Shape} {e : EltTy}

/-- Where some store of the stretch L₁ holds the index y, the stores L₂ made before the stretch are not seen at y. -/
theorem canon_append_of_cover : ∀ (L₁ L₂ : List (View.Piece Val s e)) (y : s.Idx),
    (∃ p ∈ L₁, y ∈ p.1.set) → View.canon (L₁ ++ L₂) y = View.canon L₁ y
  | [], _, _, h => by obtain ⟨p, hp, _⟩ := h; exact absurd hp List.not_mem_nil
  | p :: L, L₂, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L L₂ y ?_
      obtain ⟨q, hq, hyq⟩ := h
      rcases List.mem_cons.mp hq with rfl | hq'
      · exact absurd hyq hm
      · exact ⟨q, hq', hyq⟩

/-- Where the stores after the first one made (all of the list but its last entry) cover the index y, the first store
    made is not seen at y. -/
theorem canon_dropLast_of_cover (L : List (View.Piece Val s e)) (y : s.Idx) (h : ∃ p ∈ L.dropLast, y ∈ p.1.set) :
    View.canon L y = View.canon L.dropLast y := by
  have hne : L ≠ [] := by
    rintro rfl
    obtain ⟨p, hp, _⟩ := h
    exact absurd hp List.not_mem_nil
  conv_lhs => rw [← List.dropLast_append_getLast hne]
  exact canon_append_of_cover _ _ y h

end Cert.LibCanonPrefix

end
-- ==== Proof.CaseA.lean ====
/-
  A grid point that starts a new output block (the first feature tile): what the body leaves in the output block's
  buffer.

  The body first fills the whole block with zero, then makes the eight chunk stores; the store for the chunk at q
  writes the slice's current contents, read back through the earlier stores, plus the chunk's partial scores.  The
  earlier chunk stores are disjoint from the slice, so the read-back is the zero fill; the eight slices tile the block,
  so the zero fill itself is not seen afterwards.  The buffer ends holding, at (tt, b, s), zero plus the tile's share
  of the score.
-/
import proofs.«130481_j79894981640368_2_alg».proof.Proof.Gen.KernelIdeal.Frame
import proofs.«130481_j79894981640368_2_alg».proof.Proof.Chunk
import proofs.«130481_j79894981640368_2_alg».proof.Proof.LibCanonPrefix
import Idealize.ShloMosaic.Lib.Pipeline.Value
import Idealize.ShloMosaic.Lib.Tactic

set_option maxRecDepth 16384

noncomputable section

namespace Cert.Attn.CaseA

open Idealize.ShloMosaic Idealize.ShloMosaic.TcCoe Idealize.SL.Sem Idealize.ShloMosaic.ValueIdx
open Cert.KernelIdeal Cert.KernelIdeal.Gen Cert.Attn.Chunk

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A read-back through a rectangle does not see an earlier store whose rectangle ends, on the source axis, before
    the read-back's begins. -/
theorem readCov_skip (v : View sig .tc .vmem S16x16x128x1 .f32) (r' r : Rect S16x16x128x1)
    (w : r'.shape.Idx → Elt Ideal .f32) (L : List (View.Piece (Elt Ideal) S16x16x128x1 .f32))
    (h : r'.off (2 : Fin 4) + r'.stride (2 : Fin 4) * (r'.size (2 : Fin 4) - 1) < r.off (2 : Fin 4)) :
    v.readCov (⟨r', w⟩ :: L) r.toLoadRect = v.readCov L r.toLoadRect :=
  View.readCov_cons_of_disjoint v _ L _ (Rect.disjoint_of_separated r' r (2 : Fin 4) (Or.inl (Or.inr h)))

/-- A read-back straight after the zero fill of the whole block reads zero. -/
theorem readCov_zero (v : View sig .tc .vmem S16x16x128x1 .f32) (r : Rect S16x16x128x1)
    (inbz : ∀ a, (![0, 0, 0, 0] : Fin 4 → Nat) a + S16x16x128x1.size a ≤ S16x16x128x1.size a) :
    v.readCov (Val := Elt Ideal) [⟨Rect.unit (s := S16x16x128x1) ![0, 0, 0, 0] ![16, 16, 128, 1] inbz, k1_pay6 (F := Ideal)⟩]
        r.toLoadRect
      = (fun _ => Ideal.ofBits .f32 0x00000000#32 : r.shape.Idx → Elt Ideal .f32) := by
  rw [View.readCov_eq_canon']
  funext y
  exact congrFun (View.canon_unit_zero (Val := Elt Ideal) (S := S16x16x128x1) (e := .f32) hz4 inbz (k1_pay6 (F := Ideal))) _

/-- After the body the output block's buffer holds, at every index j = (tt, b, s, ·), zero plus the tile's share of
    the score of (tt, s, b). -/
theorem out_A (c : Dev nD) (i : grid1.Coords) (arg2 : Memref sig .tc .vmem S16x16x1024 .bf16) (harg2 : arg2.IsWhole) (arg3 : Memref sig .tc .vmem S16x128x256 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S16x16x128x1 .f32) (harg7 : arg7.IsWhole) (hc0 : cond1_0 i)
    (x0 : Vec Ideal S16x16x1024 .bf16) (x1 : Vec Ideal S16x128x256 .bf16) (x2 : Vec Ideal S1024x256 .bf16) (x3 : Vec Ideal S1x256 .f32) (x4 : Vec Ideal S1x256 .f32) (j : S16x16x128x1.Idx) :
    out1_A_5 (F := Ideal) c i arg2 harg2 arg3 harg3 arg4 harg4 arg5 harg5 arg6 harg6 arg7 harg7 hc0 x0 x1 x2 x3 x4 j
      = Ideal.ofBits .f32 0x00000000#32 + tileSum x0 x1 x2 x3 x4 (j 0) (j 1) (j 2) := by
  unfold out1_A_5
  rw [View.read_writes_eq_canon _ _ _ (cover1_A_5 c i arg2 harg2 arg3 harg3 arg4 harg4 arg5 harg5 arg6 harg6 arg7 harg7 hc0 x0 x1 x2 x3 x4)]
  have hcov := View.cover_of_tiledL (kernelRun1_A (F := Ideal) c i arg2 harg2 arg3 harg3 arg4 harg4 arg5 harg5 arg6 harg6 arg7 harg7 hc0 x0 x1 x2 x3 x4).1.dropLast
    S16x16x16x1.size (by sl_kernel_rfl) j
  rw [Cert.LibCanonPrefix.canon_dropLast_of_cover _ j hcov]
  refine View.canon_apply_of_pieces (fun j => Ideal.ofBits .f32 0x00000000#32 + tileSum x0 x1 x2 x3 x4 (j 0) (j 1) (j 2)) _ ?_ j hcov
  unfold kernelRun1_A
  dsimp only
  sl_unfold_words
  simp (disch := decide) only [readCov_skip, readCov_zero, View.readAt_eq_ld, harg2.read_unread, harg3.read_unread,
    harg4.read_unread, harg5.read_unread, harg6.read_unread, View.ld_unit_zero (S := S16x16x1024) hz3,
    View.ld_unit_zero (S := S1024x256) hz2, View.ld_unit_zero (S := S1x256) hz2, pay2_eq, pay9_eq, pay10_eq, pay13_eq,
    pay14_eq, pay1_eq, pay12_eq, pay8_eq, pay15_eq, pay7_eq]
  intro p hp
  simp only [List.dropLast, List.mem_cons, List.not_mem_nil, or_false] at hp
  rcases hp with rfl | rfl | rfl | rfl | rfl | rfl | rfl | rfl
  all_goals
    intro x
    first
    | exact piece _ (fun a => by fin_cases a <;> decide) (fun a => by fin_cases a <;> decide) x0 x1 x2 x3 x4 _ x
    | (refine (piece _ (fun a => by fin_cases a <;> decide) (fun a => by fin_cases a <;> decide) x0 x1 x2 x3 x4 _ x).trans ?_
       exact congrArg (fun z => z + _) (congrFun (readCov_zero arg7.view _ inb_S16x16x128x1_S16x16x128x1_0_0_0_0) x))

end Cert.Attn.CaseA

end
-- ==== Proof.CaseB.lean ====
/-
  A grid point that does not start a new output block (the feature tile is not the first): what the body leaves in
  the output block's buffer.

  The body makes eight stores, one per chunk of 16 source positions; the store for the chunk at q writes the current
  contents of that slice plus the chunk's partial scores.  The eight slices tile the block and every store's payload is
  the same function of the block index restricted to its slice, so the buffer ends holding, at (tt, b, s), what it held
  before plus the tile's share of the score.
-/
import proofs.«130481_j79894981640368_2_alg».proof.Proof.Gen.KernelIdeal.Frame
import proofs.«130481_j79894981640368_2_alg».proof.Proof.Chunk
import Idealize.ShloMosaic.Lib.Pipeline.Value
import Idealize.ShloMosaic.Lib.Tactic

set_option maxRecDepth 16384

noncomputable section

namespace Cert.Attn.CaseB

open Idealize.ShloMosaic Idealize.ShloMosaic.TcCoe Idealize.SL.Sem Idealize.ShloMosaic.ValueIdx
open Cert.KernelIdeal Cert.KernelIdeal.Gen Cert.Attn.Chunk

theorem hz2 : (![0, 0] : Fin 2 → Nat) = fun _ => 0 := funext fun a => by fin_cases a <;> rfl
theorem hz3 : (![0, 0, 0] : Fin 3 → Nat) = fun _ => 0 := funext fun a => by fin_cases a <;> rfl

/-- After the body the output block's buffer holds, at every index j = (tt, b, s, ·), its contents before plus the
    tile's share of the score of (tt, s, b). -/
theorem out_B (c : Dev nD) (i : grid1.Coords) (arg2 : Memref sig .tc .vmem S16x16x1024 .bf16) (harg2 : arg2.IsWhole) (arg3 : Memref sig .tc .vmem S16x128x256 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S16x16x128x1 .f32) (harg7 : arg7.IsWhole) (hc0 : ¬cond1_0 i)
    (x0 : Vec Ideal S16x16x1024 .bf16) (x1 : Vec Ideal S16x128x256 .bf16) (x2 : Vec Ideal S1024x256 .bf16) (x3 : Vec Ideal S1x256 .f32) (x4 : Vec Ideal S1x256 .f32) (xo5 : Vec Ideal S16x16x128x1 .f32) (j : S16x16x128x1.Idx) :
    out1_B_5 (F := Ideal) c i arg2 harg2 arg3 harg3 arg4 harg4 arg5 harg5 arg6 harg6 arg7 harg7 hc0 x0 x1 x2 x3 x4 xo5 j
      = xo5 j + tileSum x0 x1 x2 x3 x4 (j 0) (j 1) (j 2) := by
  unfold out1_B_5
  rw [View.read_writes_eq_canon _ _ _ (cover1_B_5 c i arg2 harg2 arg3 harg3 arg4 harg4 arg5 harg5 arg6 harg6 arg7 harg7 hc0 x0 x1 x2 x3 x4 xo5)]
  refine View.canon_apply_of_pieces (fun j => xo5 j + tileSum x0 x1 x2 x3 x4 (j 0) (j 1) (j 2)) _ ?_ j
    (cover1_B_5 c i arg2 harg2 arg3 harg3 arg4 harg4 arg5 harg5 arg6 harg6 arg7 harg7 hc0 x0 x1 x2 x3 x4 xo5 j)
  unfold kernelRun1_B
  dsimp only
  sl_unfold_words
  simp only [View.readAt_eq_ld, harg2.read_unread, harg3.read_unread, harg4.read_unread, harg5.read_unread,
    harg6.read_unread, harg7.read_unread, View.ld_unit_zero (S := S16x16x1024) hz3, View.ld_unit_zero (S := S1024x256) hz2,
    View.ld_unit_zero (S := S1x256) hz2, pay2_eq, pay9_eq, pay10_eq, pay13_eq, pay14_eq, pay1_eq, pay12_eq, pay8_eq,
    pay15_eq, pay7_eq]
  intro p hp
  simp only [List.mem_cons, List.not_mem_nil, or_false] at hp
  rcases hp with rfl | rfl | rfl | rfl | rfl | rfl | rfl | rfl
  all_goals (intro x; exact piece _ (fun a => by fin_cases a <;> decide) (fun a => by fin_cases a <;> decide) x0 x1 x2 x3 x4 _ x)

end Cert.Attn.CaseB

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.Region1.lean ====
/-
  What the second kernel region leaves in its output array.

  The grid is 2 × 4: point t = 4·T + g works on target positions 16·T … 16·T + 15 and on the feature tile
  256·g … 256·g + 255; the output block (the scores of those 16 target positions against all source positions, all
  batch entries) stays in its buffer over the four points of a row of the grid and is written back after the last one.
  Point g = 0 leaves zero plus tile 0's share of each score, every later point adds its tile's share, so after point g
  the buffer holds zero plus the sum over the tiles 0 … g, and what is written back is zero plus the sum over all 1024
  features.  The two blocks tile the array.
-/
import proofs.«130481_j79894981640368_2_alg».proof.Proof.Gen.KernelIdeal.Frame
import proofs.«130481_j79894981640368_2_alg».proof.Proof.CaseA
import proofs.«130481_j79894981640368_2_alg».proof.Proof.CaseB
import proofs.«130481_j79894981640368_2_alg».proof.Proof.LibBlockSum
import Idealize.ShloMosaic.Lib.Pipeline.Value

set_option maxRecDepth 16384

noncomputable section

open scoped BigOperators

namespace Cert.Attn.Region1

open Idealize.ShloMosaic Idealize.ShloMosaic.TcCoe Idealize.SL.Sem Idealize.ShloMosaic.ValueIdx
open Idealize.ShloMosaic.Pipeline (Dat)
open Cert.KernelIdeal Cert.KernelIdeal.Gen Cert.Attn.Chunk

variable (V : (c : Dev nD) → (b : Ref sig .tc) → Buf (Elt Ideal) ((c : Thread nD τ).loc b))

/-- The five arrays the region reads, as the region finds them: the target states, the source projections, the target
    half of the weight (input feature by output feature), the bias row and the scoring row. -/
abbrev aH (c : Dev nD) : S32x16x1024.Idx → EReal := V c main_v0
abbrev aSP (c : Dev nD) : S16x128x1024.Idx → EReal := V c main_v10
abbrev aWT (c : Dev nD) : S1024x1024.Idx → EReal := V c main_v5
abbrev aB (c : Dev nD) : S1x1024.Idx → EReal := V c main_v7
abbrev aVA (c : Dev nD) : S1x1024.Idx → EReal := V c main_arg4

/-- One summand of a score, from the arrays the region finds: hidden unit o of target position T against source
    position s in batch entry b, weighted by the scoring row. -/
def gterm (c : Dev nD) (T : Fin 32) (s : Fin 128) (b : Fin 16) (o : Fin 1024) : EReal :=
  Ideal.tanh (((∑ k : Fin 1024, aH V c (ix3 T b k) * aWT V c (ix2 k o)) + aSP V c (ix3 b s o)) + aB V c (ix2 (0 : Fin 1) o))
    * aVA V c (ix2 (0 : Fin 1) o)

/-- Feature o' of tile g, as a feature of the whole axis. -/
def feat (g : ℕ) (o' : Fin 256) : Fin 1024 := ⟨(256 * g + o'.val) % 1024, Nat.mod_lt _ (by norm_num)⟩

/-- The printed index maps over the grid: the target block moves with t / 4, the feature tile with t % 4. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val % 4
    ∧ win1_2.index t (0 : Fin 2) = 0 ∧ win1_2.index t (1 : Fin 2) = t.val % 4
    ∧ win1_3.index t (0 : Fin 2) = 0 ∧ win1_3.index t (1 : Fin 2) = t.val % 4
    ∧ win1_4.index t (0 : Fin 2) = 0 ∧ win1_4.index t (1 : Fin 2) = t.val % 4
    ∧ win1_5.index t (0 : Fin 4) = t.val / 4 ∧ win1_5.index t (1 : Fin 4) = 0 ∧ win1_5.index t (2 : Fin 4) = 0
    ∧ win1_5.index t (3 : Fin 4) = 0 :=
  (by decide +kernel : ∀ t : Fin grid1.N, _)

/-- The block of target states at point t: rows 16·(t/4) … of the array. -/
theorem iblk0_apply (c : Dev nD) (t : Fin cfg1.N) (tt b : Fin 16) (k : Fin 1024) (T : Fin 32)
    (hT : T.val = 16 * (t.val / 4) + tt.val) :
    (iblk1 V c 0 t : Vec Ideal S16x16x1024 .bf16) (ix3 tt b k) = aH V c (ix3 T b k) := by
  obtain ⟨e0, e1, e2, -⟩ := idx_facts t
  unfold iblk1
  rw [View.read_apply]
  show V c main_v0 _ = V c main_v0 _
  congr 1
  funext a
  apply Fin.ext
  match a with
  | ⟨0, _⟩ => show win1_0.index t (0 : Fin 3) * 16 + 1 * tt.val = T.val; rw [e0, hT]; omega
  | ⟨1, _⟩ => show win1_0.index t (1 : Fin 3) * 16 + 1 * b.val = b.val; rw [e1]; omega
  | ⟨2, _⟩ => show win1_0.index t (2 : Fin 3) * 1024 + 1 * k.val = k.val; rw [e2]; omega

/-- The block of source projections at point t: features 256·(t%4) … of the array. -/
theorem iblk1_apply (c : Dev nD) (t : Fin cfg1.N) (b : Fin 16) (s : Fin 128) (o' : Fin 256) (O : Fin 1024)
    (hO : O.val = 256 * (t.val % 4) + o'.val) :
    (iblk1 V c 1 t : Vec Ideal S16x128x256 .bf16) (ix3 b s o') = aSP V c (ix3 b s O) := by
  obtain ⟨-, -, -, e0, e1, e2, -⟩ := idx_facts t
  unfold iblk1
  rw [View.read_apply]
  show V c main_v10 _ = V c main_v10 _
  congr 1
  funext a
  apply Fin.ext
  match a with
  | ⟨0, _⟩ => show win1_1.index t (0 : Fin 3) * 16 + 1 * b.val = b.val; rw [e0]; omega
  | ⟨1, _⟩ => show win1_1.index t (1 : Fin 3) * 128 + 1 * s.val = s.val; rw [e1]; omega
  | ⟨2, _⟩ => show win1_1.index t (2 : Fin 3) * 256 + 1 * o'.val = O.val; rw [e2, hO]; omega

/-- The tile of the target weight at point t. -/
theorem iblk2_apply (c : Dev nD) (t : Fin cfg1.N) (k : Fin 1024) (o' : Fin 256) (O : Fin 1024)
    (hO : O.val = 256 * (t.val % 4) + o'.val) :
    (iblk1 V c 2 t : Vec Ideal S1024x256 .bf16) (ix2 k o') = aWT V c (ix2 k O) := by
  obtain ⟨-, -, -, -, -, -, e0, e1, -⟩ := idx_facts t
  unfold iblk1
  rw [View.read_apply]
  show V c main_v5 _ = V c main_v5 _
  congr 1
  funext a
  apply Fin.ext
  match a with
  | ⟨0, _⟩ => show win1_2.index t (0 : Fin 2) * 1024 + 1 * k.val = k.val; rw [e0]; omega
  | ⟨1, _⟩ => show win1_2.index t (1 : Fin 2) * 256 + 1 * o'.val = O.val; rw [e1, hO]; omega

/-- The tile of the bias row at point t. -/
theorem iblk3_apply (c : Dev nD) (t : Fin cfg1.N) (o' : Fin 256) (O : Fin 1024)
    (hO : O.val = 256 * (t.val % 4) + o'.val) :
    (iblk1 V c 3 t : Vec Ideal S1x256 .f32) (ix2 (0 : Fin 1) o') = aB V c (ix2 (0 : Fin 1) O) := by
  obtain ⟨-, -, -, -, -, -, -, -, e0, e1, -⟩ := idx_facts t
  unfold iblk1
  rw [View.read_apply]
  show V c main_v7 _ = V c main_v7 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * o'.val = O.val; rw [e1, hO]; omega

/-- The tile of the scoring row at point t. -/
theorem iblk4_apply (c : Dev nD) (t : Fin cfg1.N) (o' : Fin 256) (O : Fin 1024)
    (hO : O.val = 256 * (t.val % 4) + o'.val) :
    (iblk1 V c 4 t : Vec Ideal S1x256 .f32) (ix2 (0 : Fin 1) o') = aVA V c (ix2 (0 : Fin 1) O) := by
  obtain ⟨-, -, -, -, -, -, -, -, -, -, e0, e1, -⟩ := idx_facts t
  unfold iblk1
  rw [View.read_apply]
  show V c main_arg4 _ = V c main_arg4 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * o'.val = O.val; rw [e1, hO]; omega

/-- The tile's share of a score at point t, in the arrays' own coordinates. -/
theorem tile_at (c : Dev nD) (t : Fin cfg1.N) (tt b : Fin 16) (s : Fin 128) (T : Fin 32)
    (hT : T.val = 16 * (t.val / 4) + tt.val) :
    tileSum (iblk1 V c 0 t) (iblk1 V c 1 t) (iblk1 V c 2 t) (iblk1 V c 3 t) (iblk1 V c 4 t) tt b s = ∑ o' : Fin 256, gterm V c T s b (feat (t.val % 4) o') := by
  unfold tileSum
  refine Finset.sum_congr rfl fun o' _ => ?_
  have hO : (feat (t.val % 4) o').val = 256 * (t.val % 4) + o'.val := by
    show (256 * (t.val % 4) + o'.val) % 1024 = _
    have := o'.isLt
    omega
  unfold gterm proj
  rw [iblk1_apply V c t b s o' _ hO, iblk3_apply V c t o' _ hO, iblk4_apply V c t o' _ hO]
  refine congrArg (fun z => Ideal.tanh ((z + _) + _) * _) ?_
  refine Finset.sum_congr rfl fun k _ => ?_
  rw [iblk0_apply V c t tt b k T hT, iblk2_apply V c t k o' _ hO]

/-- What the output block's buffer holds after point n, at (tt, b, s): zero plus the shares of the tiles 0 … n % 4. -/
def acc (c : Dev nD) (n : ℕ) (T : Fin 32) (s : Fin 128) (b : Fin 16) : EReal :=
  Ideal.ofBits .f32 0x00000000#32 + ∑ g ∈ Finset.range (n % 4 + 1), ∑ o' : Fin 256, gterm V c T s b (feat g o')

/-- The running sum, by induction on the grid point. -/
theorem outsAt_eq (c : Dev nD) : ∀ (n : ℕ) (hn : n < cfg1.N) (tt b : Fin 16) (s : Fin 128) (u : Fin 1) (T : Fin 32),
    T.val = 16 * (n / 4) + tt.val → outsAt1 V c n hn (ix4 tt b s u) = acc V c n T s b := by
  intro n
  induction n using Nat.strong_induction_on with
  | _ n ih =>
    intro hn tt b s u T hT
    let t : Fin cfg1.N := ⟨n, hn⟩
    by_cases h0 : n % 4 = 0
    · refine (congrFun (outsAt1_A V c t h0) (ix4 tt b s u)).trans ?_
      refine (Cert.Attn.CaseA.out_A c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t) (iblk1 V c 4 t) (ix4 tt b s u)).trans ?_
      show Ideal.ofBits .f32 0x00000000#32 + tileSum (iblk1 V c 0 t) (iblk1 V c 1 t) (iblk1 V c 2 t) (iblk1 V c 3 t) (iblk1 V c 4 t) tt b s = _
      rw [tile_at V c t tt b s T hT]
      unfold acc
      show _ = Ideal.ofBits .f32 0x00000000#32 + ∑ g ∈ Finset.range (n % 4 + 1), _
      rw [h0, Finset.sum_range_one]
    · have hN : cfg1.N = 8 := N_1
      have hn1 : n - 1 < cfg1.N := by omega
      refine (congrFun (outsAt1_B V c t h0) (ix4 tt b s u)).trans ?_
      refine (Cert.Attn.CaseB.out_B c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (iblk1 V c 4 t)
        (outsAt1 V c (t.val - 1) (Nat.lt_of_le_of_lt (Nat.sub_le _ _) t.isLt)) (ix4 tt b s u)).trans ?_
      show outsAt1 V c (n - 1) _ (ix4 tt b s u) + tileSum (iblk1 V c 0 t) (iblk1 V c 1 t) (iblk1 V c 2 t) (iblk1 V c 3 t) (iblk1 V c 4 t) tt b s = _
      have hT' : T.val = 16 * ((n - 1) / 4) + tt.val := by omega
      rw [ih (n - 1) (by omega) hn1 tt b s u T hT', tile_at V c t tt b s T hT]
      unfold acc
      have hstep : (n - 1) % 4 + 1 = n % 4 := by omega
      show (_ + ∑ g ∈ Finset.range ((n - 1) % 4 + 1), _) + ∑ o' : Fin 256, gterm V c T s b (feat (n % 4) o') = _
      rw [hstep, Finset.sum_range_succ, add_assoc]

/-- The output array after the region: at (T, b, s, ·) zero plus the sum over all 1024 features. -/
def fin (c : Dev nD) : S32x16x128x1.Idx → EReal :=
  fun i => Ideal.ofBits .f32 0x00000000#32 + ∑ o : Fin 1024, gterm V c (i 0) (i 2) (i 1) o

/-- After the last point of a row of the grid the buffer holds the whole sums. -/
theorem acc_last (c : Dev nD) (n : ℕ) (h3 : n % 4 = 3) (T : Fin 32) (s : Fin 128) (b : Fin 16) :
    acc V c n T s b = Ideal.ofBits .f32 0x00000000#32 + ∑ o : Fin 1024, gterm V c T s b o := by
  unfold acc
  rw [h3]
  exact congrArg (_ + ·) (Cert.LibBlockSum.sum_range_blocks 4 256 1024 rfl (by norm_num) (fun o => gterm V c T s b o))

/-- What a write-back writes is the block of the final array. -/
theorem flushed_eq (c : Dev nD) (t : Fin cfg1.N) (hf : (cfg1.win 5).flush t = true) :
    (dat1 V c).flushed 5 t = ((cfg1.win 5).blk t).view.read (Elt Ideal) (fin V c) := by
  have h3 : t.val % 4 = 3 := (flush1_5 t).mp hf
  have hN : cfg1.N = 8 := N_1
  obtain ⟨-, -, -, -, -, -, -, -, -, -, -, -, e0, e1, e2, e3⟩ := idx_facts t
  show (cfg1.win 5).cut (grid1.coords t) ((dat1 V c).after 5 t) = _
  rw [after1_5]
  funext j
  obtain ⟨tt, b, s, u, rfl⟩ : ∃ (tt b : Fin 16) (s : Fin 128) (u : Fin 1), j = ix4 tt b s u := ⟨j 0, j 1, j 2, j 3, eq_ix4 j⟩
  have hlt : 16 * (t.val / 4) + tt.val < 32 := by have := t.isLt; have := tt.isLt; omega
  show outsAt1 V c t.val t.isLt (ix4 tt b s u) = fin V c (((cfg1.win 5).blk t).view.emb (ix4 tt b s u))
  rw [outsAt_eq V c t.val t.isLt tt b s u ⟨16 * (t.val / 4) + tt.val, hlt⟩ rfl, acc_last V c t.val h3]
  have key : ∀ i : S32x16x128x1.Idx, (i 0).val = 16 * (t.val / 4) + tt.val → (i 1).val = b.val → (i 2).val = s.val →
      Ideal.ofBits .f32 0x00000000#32 + ∑ o : Fin 1024, gterm V c ⟨16 * (t.val / 4) + tt.val, hlt⟩ s b o = fin V c i := by
    intro i h0 h1 h2
    have a0 : (i 0 : Fin 32) = ⟨16 * (t.val / 4) + tt.val, hlt⟩ := Fin.ext h0
    have a1 : (i 1 : Fin 16) = b := Fin.ext h1
    have a2 : (i 2 : Fin 128) = s := Fin.ext h2
    unfold fin
    rw [a0, a1, a2]
    rfl
  refine key _ ?_ ?_ ?_
  · show win1_5.index t (0 : Fin 4) * 16 + 1 * tt.val = _; rw [e0]; omega
  · show win1_5.index t (1 : Fin 4) * 16 + 1 * b.val = _; rw [e1]; omega
  · show win1_5.index t (2 : Fin 4) * 128 + 1 * s.val = _; rw [e2]; omega

/-- The region's output array ends holding the whole sums: the two written-back blocks tile it. -/
theorem final (c : Dev nD) : (dat1 V c).arrAt 5 cfg1.N = fin V c :=
  (dat1 V c).arrAt_eq_of_cover 5 (fin V c) (flushed_eq V c) fun i => by
    have hN : cfg1.N = 8 := N_1
    have hi0 : (i 0).val < 32 := (i 0).isLt
    have hi1 : (i 1).val < 16 := (i 1).isLt
    have hi2 : (i 2).val < 128 := (i 2).isLt
    have hi3 : (i 3).val < 1 := (i 3).isLt
    let t : Fin cfg1.N := ⟨4 * ((i 0).val / 16) + 3, by omega⟩
    obtain ⟨-, -, -, -, -, -, -, -, -, -, -, -, e0, e1, e2, e3⟩ := idx_facts t
    refine ⟨t, (flush1_5 t).mpr (by show (4 * ((i 0).val / 16) + 3) % 4 = 3; omega), ?_⟩
    show i ∈ ((View.whole main_v11).slice (win1_5.rect t)).set
    rw [View.set_slice_whole, Rect.mem_set_unit]
    intro a
    have ht : t.val = 4 * ((i 0).val / 16) + 3 := rfl
    match a with
    | ⟨0, _⟩ =>
      show win1_5.index t (0 : Fin 4) * 16 ≤ (i 0).val ∧ (i 0).val < win1_5.index t (0 : Fin 4) * 16 + 16
      rw [e0, ht]; omega
    | ⟨1, _⟩ =>
      show win1_5.index t (1 : Fin 4) * 16 ≤ (i 1).val ∧ (i 1).val < win1_5.index t (1 : Fin 4) * 16 + 16
      rw [e1]; omega
    | ⟨2, _⟩ =>
      show win1_5.index t (2 : Fin 4) * 128 ≤ (i 2).val ∧ (i 2).val < win1_5.index t (2 : Fin 4) * 128 + 128
      rw [e2]; omega
    | ⟨3, _⟩ =>
      show win1_5.index t (3 : Fin 4) * 1 ≤ (i 3).val ∧ (i 3).val < win1_5.index t (3 : Fin 4) * 1 + 1
      rw [e3]; omega

end Cert.Attn.Region1

end
-- ==== Proof.KernelValue.lean ====
/-
  The kernel program's result is the specification.

  The result buffer holds the last stretch of host operations applied to the second region's output array: the row
  softmax of that array (over the source positions), with target position and batch entry in the array's order.  The
  second region's output array holds, at (t, b, s), zero plus the sum over all 1024 features of the summands read off
  the arrays the region finds, and those arrays are the arguments re-laid by the host operations before the regions and
  the first region's source projection: each summand is the specification's, the zero word is the real number zero, and
  the sum is the score.
-/
import proofs.«130481_j79894981640368_2_alg».proof.Proof.Gen.KernelIdeal.Frame
import proofs.«130481_j79894981640368_2_alg».proof.Proof.Spec
import proofs.«130481_j79894981640368_2_alg».proof.Proof.TailRun
import proofs.«130481_j79894981640368_2_alg».proof.Proof.Entry
import proofs.«130481_j79894981640368_2_alg».proof.Proof.Region1
import Idealize.ShloMosaic.PureOps.Ideal.Laws

set_option maxRecDepth 16384

noncomputable section

open scoped BigOperators

namespace Cert.Attn.KernelValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- A summand read off the arrays the second region finds is the specification's summand of the arguments. -/
theorem gterm_eq (t : Fin 32) (s : Fin 128) (b : Fin 16) (o : Fin 1024) :
    Cert.Attn.Region1.gterm (V3 (F := Ideal) m ρ) c t s b o
      = Cert.Attn.term (m ((c : Thread nD τ).loc main_arg0)) (m ((c : Thread nD τ).loc main_arg1)) (m ((c : Thread nD τ).loc main_arg2)) (m ((c : Thread nD τ).loc main_arg3)) (m ((c : Thread nD τ).loc main_arg4)) t s b o := by
  unfold Cert.Attn.Region1.gterm Cert.Attn.term Cert.Attn.tproj
  dsimp only [Cert.Attn.Region1.aH, Cert.Attn.Region1.aSP, Cert.Attn.Region1.aWT, Cert.Attn.Region1.aB, Cert.Attn.Region1.aVA]
  rw [Cert.Attn.Entry.entry_srcproj m ρ c b s o, Cert.Attn.Entry.entry_bias m ρ c o, Cert.Attn.Entry.entry_va m ρ c]
  refine congrArg (fun z => Ideal.tanh ((z + _) + _) * _) ?_
  refine Finset.sum_congr rfl fun k _ => ?_
  rw [Cert.Attn.Entry.entry_h m ρ c t b k, Cert.Attn.Entry.entry_wt m ρ c k o]

/-- The second region's output array, at (t, b, s), is the score of (t, s, b). -/
theorem scores_eq (t : Fin 32) (b : Fin 16) (s : Fin 128) (u : Fin 1) :
    (W4 (F := Ideal) m ρ c (Proc.devRef .tc main_v11) : S32x16x128x1.Idx → EReal) (ix4 t b s u)
      = Cert.Attn.score (m ((c : Thread nD τ).loc main_arg0)) (m ((c : Thread nD τ).loc main_arg1)) (m ((c : Thread nD τ).loc main_arg2)) (m ((c : Thread nD τ).loc main_arg3)) (m ((c : Thread nD τ).loc main_arg4)) t s b := by
  have hW : (W4 (F := Ideal) m ρ c (Proc.devRef .tc main_v11) : S32x16x128x1.Idx → EReal)
      = Cert.Attn.Region1.fin (V3 (F := Ideal) m ρ) c :=
    (W4_arr m ρ c 5).trans (Cert.Attn.Region1.final (V3 (F := Ideal) m ρ) c)
  rw [hW]
  unfold Cert.Attn.Region1.fin Cert.Attn.score
  show Ideal.ofBits .f32 0x00000000#32 + ∑ o : Fin 1024, Cert.Attn.Region1.gterm (V3 (F := Ideal) m ρ) c t s b o = _
  rw [Ideal.ofBits_zero_f32, zero_add]
  exact Finset.sum_congr rfl fun o _ => gterm_eq m ρ c t s b o

/-- The result buffer after the run holds the specification's result of the arguments. -/
theorem kernel_out :
    (W5 (F := Ideal) m ρ c (Proc.devRef .tc main_v25) : S32x128x16x1.Idx → EReal)
      = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Attn.Tail.W5_out m ρ c]
  funext i
  obtain ⟨t, s, b, u, rfl⟩ : ∃ (t : Fin 32) (s : Fin 128) (b : Fin 16) (u : Fin 1), i = ix4 t s b u :=
    ⟨i 0, i 1, i 2, i 3, eq_ix4 i⟩
  rw [Cert.Attn.Tail.tail_apply, Cert.Attn.out_apply]
  exact congrArg (fun f => Cert.Attn.softmaxRow f s) (funext fun s' => scores_eq m ρ c t b s' (0 : Fin 1))

end Cert.Attn.KernelValue

end
-- ==== Proof.LibAxis1Reduce.lean ====
/-
  The host's maximum-reduce over the SECOND axis of a rank-4 array, read at one entry.

  For an [n0, n1, n2, n3] array reduced over its second axis into an [n0, n2, n3] array, the entry at (a, c, d) is the
  fold of `max`, from the start value, over the entries (a, 0, c, d), …, (a, n1-1, c, d).  Stated at the extended
  reals, for any extents and float format: the rank-4 companion of the reduction over the last axis of a rank-3 array.
-/
import Idealize.ShloMosaic.PureOps.Ideal.Laws
import Idealize.ShloMosaic.Lib.ValueIdx

noncomputable section
namespace Cert.LibAxis1Reduce
open Idealize.ShloMosaic Idealize.ShloMosaic.ValueIdx

variable {φ : FTy}

/-- Entry (a, c, d) of the result with the coordinate k put back on the reduced axis is the entry (a, k, c, d). -/
theorem lift_axis1 {n0 n1 n2 n3 : ℕ} (h : (⟨4, ![n0, n1, n2, n3]⟩ : Shape).Reduces [1] ⟨3, ![n0, n2, n3]⟩)
    (a : Fin n0) (c : Fin n2) (d : Fin n3) (k : Fin n1) : h.lift (ix3 a c d) k = ix4 a k c d :=
  funext fun e => Fin.ext (by
    match e with
    | ⟨0, _⟩ => rfl
    | ⟨1, _⟩ => rfl
    | ⟨2, _⟩ => rfl
    | ⟨3, _⟩ => rfl)

/-- The host's maximum-reduce over the second axis: the fold of `max` over that axis from the start value. -/
theorem hostReduce_max_axis1 {n0 n1 n2 n3 : ℕ} {u : Shape} (x : FVec Ideal ⟨4, ![n0, n1, n2, n3]⟩ φ) (init : u.Idx → Ideal φ)
    (h' : (⟨4, ![n0, n1, n2, n3]⟩ : Shape).ReducesTo [1] ⟨3, ![n0, n2, n3]⟩)
    (h : (⟨4, ![n0, n1, n2, n3]⟩ : Shape).Reduces [1] ⟨3, ![n0, n2, n3]⟩) (hu : 0 < u.numel)
    (a : Fin n0) (c : Fin n2) (d : Fin n3) :
    Host.reduce (FloatOps.maximumf (F := Ideal) (φ := φ)) x init h' hu (ix3 a c d)
      = (Finset.univ : Finset (Fin n1)).fold max (init (Shape.Idx.first hu)) (fun k => x (ix4 a k c d)) :=
  (Host.reduce_eq_fold_single (FloatOps.maximumf (F := Ideal) (φ := φ)) x init h' h hu (ix3 a c d)).trans
    (congrArg (Finset.fold max (init (Shape.Idx.first hu)) · Finset.univ) (funext fun k => congrArg x (lift_axis1 h a c d k)))

end Cert.LibAxis1Reduce
end
-- ==== Proof.RefSide.lean ====
/-
  The reference program computes the specification.

  Read one operation at a time, at an index split into its coordinates (t, s, b, u): the two projections are the sums
  over k of a state times the weight's matching half, the hidden unit is tanh of their sum plus the bias, the score is
  the sum over the hidden units weighted by the scoring row, the shift is the larger of the maximum's start value and the
  running maximum of the row of 128 scores, and the result is exp (score - shift) divided by the sum's start value plus
  the row's sum of exp (score - shift).
-/
import proofs.«130481_j79894981640368_2_alg».proof.Proof.Spec
import proofs.«130481_j79894981640368_2_alg».proof.Proof.Gen.ReferenceIdeal.Read
import proofs.«130481_j79894981640368_2_alg».proof.Proof.LibAxis1Reduce

noncomputable section

open scoped BigOperators

namespace Cert.Attn.RefSide

open Cert.ReferenceIdeal Idealize.ShloMosaic Idealize.ShloMosaic.ValueIdx

variable (x0 : (⟨S32x16x1024, .f32⟩ : BufTy).Contents (Elt Ideal)) (x1 : (⟨S128x16x1024, .f32⟩ : BufTy).Contents (Elt Ideal))
  (x2 : (⟨S1024x2048, .f32⟩ : BufTy).Contents (Elt Ideal)) (x3 : (⟨S1024, .f32⟩ : BufTy).Contents (Elt Ideal))
  (x4 : (⟨S1x1024, .f32⟩ : BufTy).Contents (Elt Ideal))

/-! ## The two projections -/

/-- The target projection: the dot of a target state with the weight's first 1024 columns. -/
theorem v2_eq (t : Fin 32) (b : Fin 16) (o : Fin 1024) :
    Read.val_main_v2 (F := Ideal) x0 x2 (ix3 t b o) = tproj x0 x2 t b o := by
  refine (Read.val_main_v2_apply x0 x2 _).trans ?_
  unfold tproj
  refine Finset.sum_congr rfl fun k _ => ?_
  rw [Read.val_main_v0_apply]
  have hl : Read.lidx_main_v2 (ix3 t b o) k = ix3 t b k := funext fun a => Fin.ext (by
    match a with
    | ⟨0, _⟩ => rfl
    | ⟨1, _⟩ => rfl
    | ⟨2, _⟩ => rfl)
  have hr : Read.idx_main_v0 (Read.ridx_main_v2 (ix3 t b o) k) = ix2 o (lo k) := funext fun a => Fin.ext (by
    match a with
    | ⟨0, _⟩ => rfl
    | ⟨1, _⟩ => rfl)
  rw [hl, hr]

/-- The source projection: the dot of a source encoding with the weight's last 1024 columns. -/
theorem v3_eq (s : Fin 128) (b : Fin 16) (o : Fin 1024) :
    Read.val_main_v3 (F := Ideal) x1 x2 (ix3 s b o) = sproj x1 x2 s b o := by
  refine (Read.val_main_v3_apply x1 x2 _).trans ?_
  unfold sproj
  refine Finset.sum_congr rfl fun k _ => ?_
  rw [Read.val_main_v1_apply]
  have hl : Read.lidx_main_v3 (ix3 s b o) k = ix3 s b k := funext fun a => Fin.ext (by
    match a with
    | ⟨0, _⟩ => rfl
    | ⟨1, _⟩ => rfl
    | ⟨2, _⟩ => rfl)
  have hr : Read.idx_main_v1 (Read.ridx_main_v3 (ix3 s b o) k) = ix2 o (hi k) := funext fun a => Fin.ext (by
    match a with
    | ⟨0, _⟩ => rfl
    | ⟨1, _⟩ => rfl)
  rw [hl, hr]

/-! ## The three summands of a hidden unit, broadcast to [32, 128, 16, 1024] -/

theorem v6_eq (t : Fin 32) (s : Fin 128) (b : Fin 16) (o : Fin 1024) :
    Read.val_main_v6 (F := Ideal) x0 x2 (ix4 t s b o) = tproj x0 x2 t b o := by
  rw [Read.val_main_v6_apply, Read.val_main_v4_apply]
  have hi : Read.idx_main_v4 (Read.idx_main_v6 (ix4 t s b o)) = ix3 t b o := funext fun a => Fin.ext (by
    match a with
    | ⟨0, _⟩ => rfl
    | ⟨1, _⟩ => rfl
    | ⟨2, _⟩ => rfl)
  rw [hi, v2_eq]

theorem v7_eq (t : Fin 32) (s : Fin 128) (b : Fin 16) (o : Fin 1024) :
    Read.val_main_v7 (F := Ideal) x1 x2 (ix4 t s b o) = sproj x1 x2 s b o := by
  rw [Read.val_main_v7_apply, Read.val_main_v5_apply]
  have hi : Read.idx_main_v5 (Read.idx_main_v7 (ix4 t s b o)) = ix3 s b o := funext fun a => Fin.ext (by
    match a with
    | ⟨0, _⟩ => rfl
    | ⟨1, _⟩ => rfl
    | ⟨2, _⟩ => rfl)
  rw [hi, v3_eq]

theorem v10_eq (t : Fin 32) (s : Fin 128) (b : Fin 16) (o : Fin 1024) :
    Read.val_main_v10 (F := Ideal) x3 (ix4 t s b o) = x3 (ix1 o) := by
  rw [Read.val_main_v10_apply, Read.val_main_v9_apply]
  exact congrArg x3 (funext fun a => Fin.ext (by
    match a with
    | ⟨0, _⟩ => rfl))

/-- A hidden unit: tanh of the two projections' sum plus the bias. -/
theorem v12_eq (t : Fin 32) (s : Fin 128) (b : Fin 16) (o : Fin 1024) :
    Read.val_main_v12 (F := Ideal) x0 x1 x2 x3 (ix4 t s b o)
      = Ideal.tanh ((tproj x0 x2 t b o + sproj x1 x2 s b o) + x3 (ix1 o)) := by
  show Ideal.tanh ((Read.val_main_v6 (F := Ideal) x0 x2 (ix4 t s b o) + Read.val_main_v7 (F := Ideal) x1 x2 (ix4 t s b o))
    + Read.val_main_v10 (F := Ideal) x3 (ix4 t s b o)) = _
  rw [v6_eq, v7_eq, v10_eq]

/-! ## The scores -/

/-- The scores' dot over the hidden units is the specification's score. -/
theorem v13_eq (t : Fin 32) (s : Fin 128) (b : Fin 16) (u : Fin 1) :
    Read.val_main_v13 (F := Ideal) x0 x1 x2 x3 x4 (ix4 t s b u) = score x0 x1 x2 x3 x4 t s b := by
  refine (Read.val_main_v13_apply x0 x1 x2 x3 x4 _).trans ?_
  unfold score
  refine Finset.sum_congr rfl fun o _ => ?_
  have hl : Read.lidx_main_v13 (ix4 t s b u) o = ix4 t s b o := funext fun a => Fin.ext (by
    match a with
    | ⟨0, _⟩ => rfl
    | ⟨1, _⟩ => rfl
    | ⟨2, _⟩ => rfl
    | ⟨3, _⟩ => rfl)
  have hr : Read.ridx_main_v13 (ix4 t s b u) o = ix2 (0 : Fin 1) o := funext fun a => Fin.ext (by
    match a with
    | ⟨0, _⟩ => show u.val = 0; omega
    | ⟨1, _⟩ => rfl)
  rw [hl, hr, v12_eq]
  rfl

/-! ## The shift of a row: the maximum-reduce over the source positions, then the larger of it and the start value -/

/-- The running maximum of the scores of (t, ·, b) from the maximum's start value. -/
theorem v14_eq (t : Fin 32) (b : Fin 16) (w : Fin 1) :
    Read.val_main_v14 (F := Ideal) x0 x1 x2 x3 x4 (ix3 t b w)
      = (Finset.univ : Finset (Fin 128)).fold max (Ideal.ofBits .f32 0xFF800000#32)
          (fun s' => score x0 x1 x2 x3 x4 t s' b) := by
  unfold Read.val_main_v14
  refine (Cert.LibAxis1Reduce.hostReduce_max_axis1 (φ := .f32) (Read.val_main_v13 (F := Ideal) x0 x1 x2 x3 x4)
    (Read.val_main_cst (F := Ideal)) Gen.reducesTo_S32x128x16x1_S32x16x1_d1 (by decide) Gen.h_S_ t b w).trans ?_
  exact congrArg (Finset.fold max (Ideal.ofBits .f32 0xFF800000#32) · Finset.univ)
    (funext fun s' => v13_eq x0 x1 x2 x3 x4 t s' b w)

/-- The shift of the row (t, ·, b). -/
theorem v16_eq (t : Fin 32) (b : Fin 16) (w : Fin 1) :
    Read.val_main_v16 (F := Ideal) x0 x1 x2 x3 x4 (ix3 t b w) = rowMax (fun s' => score x0 x1 x2 x3 x4 t s' b) := by
  show max (Read.val_main_v15 (F := Ideal) (ix3 t b w)) (Read.val_main_v14 (F := Ideal) x0 x1 x2 x3 x4 (ix3 t b w)) = _
  rw [Read.val_main_v15_apply, v14_eq]
  rfl

/-- The shift, broadcast back over the source positions. -/
theorem v18_eq (t : Fin 32) (s : Fin 128) (b : Fin 16) (u : Fin 1) :
    Read.val_main_v18 (F := Ideal) x0 x1 x2 x3 x4 (ix4 t s b u) = rowMax (fun s' => score x0 x1 x2 x3 x4 t s' b) := by
  rw [Read.val_main_v18_apply, Read.val_main_v17_apply]
  have hi : Read.idx_main_v17 (Read.idx_main_v18 (ix4 t s b u)) = ix3 t b (0 : Fin 1) := funext fun a => Fin.ext (by
    match a with
    | ⟨0, _⟩ => rfl
    | ⟨1, _⟩ => rfl
    | ⟨2, _⟩ => rfl)
  rw [hi, v16_eq]

/-! ## The softmax -/

/-- The numerator: exp of the score less the row's shift. -/
theorem v20_eq (t : Fin 32) (s : Fin 128) (b : Fin 16) (u : Fin 1) :
    Read.val_main_v20 (F := Ideal) x0 x1 x2 x3 x4 (ix4 t s b u)
      = Ideal.exp (score x0 x1 x2 x3 x4 t s b - rowMax (fun s' => score x0 x1 x2 x3 x4 t s' b)) := by
  show Ideal.exp (Read.val_main_v13 (F := Ideal) x0 x1 x2 x3 x4 (ix4 t s b u)
    - Read.val_main_v18 (F := Ideal) x0 x1 x2 x3 x4 (ix4 t s b u)) = _
  rw [v13_eq, v18_eq]

/-- The denominator before its broadcast: the sum's start value plus the row's sum of numerators. -/
theorem v21_eq (t : Fin 32) (b : Fin 16) (w : Fin 1) :
    Read.val_main_v21 (F := Ideal) x0 x1 x2 x3 x4 (ix3 t b w)
      = Ideal.ofBits .f32 0x00000000#32
        + ∑ s' : Fin 128, Ideal.exp (score x0 x1 x2 x3 x4 t s' b - rowMax (fun s'' => score x0 x1 x2 x3 x4 t s'' b)) := by
  refine (Read.val_main_v21_apply x0 x1 x2 x3 x4 _).trans ?_
  refine congrArg (Ideal.ofBits .f32 0x00000000#32 + ·) (Finset.sum_congr rfl fun k _ => ?_)
  have hi : Read.idx_main_v21 (ix3 t b w) k = ix4 t k b w := funext fun a => Fin.ext (by
    match a with
    | ⟨0, _⟩ => rfl
    | ⟨1, _⟩ => rfl
    | ⟨2, _⟩ => rfl
    | ⟨3, _⟩ => rfl)
  rw [hi, v20_eq]

/-- The denominator, broadcast back over the source positions. -/
theorem v23_eq (t : Fin 32) (s : Fin 128) (b : Fin 16) (u : Fin 1) :
    Read.val_main_v23 (F := Ideal) x0 x1 x2 x3 x4 (ix4 t s b u)
      = Ideal.ofBits .f32 0x00000000#32
        + ∑ s' : Fin 128, Ideal.exp (score x0 x1 x2 x3 x4 t s' b - rowMax (fun s'' => score x0 x1 x2 x3 x4 t s'' b)) := by
  rw [Read.val_main_v23_apply, Read.val_main_v22_apply]
  have hi : Read.idx_main_v22 (Read.idx_main_v23 (ix4 t s b u)) = ix3 t b (0 : Fin 1) := funext fun a => Fin.ext (by
    match a with
    | ⟨0, _⟩ => rfl
    | ⟨1, _⟩ => rfl
    | ⟨2, _⟩ => rfl)
  rw [hi, v21_eq]

/-- The reference's result at (t, s, b, u) is the softmax of the row of scores of (t, ·, b) at s. -/
theorem v24_eq (t : Fin 32) (s : Fin 128) (b : Fin 16) (u : Fin 1) :
    Read.val_main_v24 (F := Ideal) x0 x1 x2 x3 x4 (ix4 t s b u)
      = softmaxRow (fun s' => score x0 x1 x2 x3 x4 t s' b) s := by
  show Ideal.div (Read.val_main_v20 (F := Ideal) x0 x1 x2 x3 x4 (ix4 t s b u))
    (Read.val_main_v23 (F := Ideal) x0 x1 x2 x3 x4 (ix4 t s b u)) = _
  rw [v20_eq, v23_eq]
  rfl

/-- The reference program's result is the specification's. -/
theorem ref_out
    (x0 : (⟨Cert.ReferenceIdeal.S32x16x1024, .f32⟩ : BufTy).Contents (Elt Ideal)) (x1 : (⟨Cert.ReferenceIdeal.S128x16x1024, .f32⟩ : BufTy).Contents (Elt Ideal))
    (x2 : (⟨Cert.ReferenceIdeal.S1024x2048, .f32⟩ : BufTy).Contents (Elt Ideal)) (x3 : (⟨Cert.ReferenceIdeal.S1024, .f32⟩ : BufTy).Contents (Elt Ideal))
    (x4 : (⟨Cert.ReferenceIdeal.S1x1024, .f32⟩ : BufTy).Contents (Elt Ideal)) :
    Cert.ReferenceIdeal.Read.val_main_v24 (F := Ideal) x0 x1 x2 x3 x4 = Cert.Attn.out x0 x1 x2 x3 x4 := by
  funext i
  obtain ⟨t, s, b, u, rfl⟩ : ∃ (t : Fin 32) (s : Fin 128) (b : Fin 16) (u : Fin 1), i = ix4 t s b u :=
    ⟨i 0, i 1, i 2, i 3, eq_ix4 i⟩
  exact (v24_eq x0 x1 x2 x3 x4 t s b u).trans (out_apply x0 x1 x2 x3 x4 t s b u).symm

end Cert.Attn.RefSide

end
-- ==== Proof.lean ====
/-
  The certificate: an attention-scoring kernel against its reference, over the extended reals.

  Both programs take target states h [32, 16, 1024], source encodings e [128, 16, 1024], a weight w [1024, 2048], a bias
  [1024] and a scoring row [1, 1024], and return, for every target position t, source position s and batch entry b, the
  softmax over s of

      score t s b = sum over o of tanh ((sum_k h (t, b, k) · w (o, k) + sum_k e (s, b, k) · w (o, 1024 + k)) + bias o) · va o.

  The reference computes this with two contractions, broadcasts, one more contraction and a softmax over axis 1 of a
  [32, 128, 16, 1] array.  The kernel program transposes and slices the arguments on the host, computes the source
  projection in a first kernel region (one matrix product), and in a second region, on a 2 × 4 grid, accumulates the scores
  tile by tile of 256 output features into a [32, 16, 128, 1] array, which the host then softmaxes over its source axis,
  transposes and reshapes.  At the ideal values a change of float format is the identity, a matrix product into a zero
  accumulator and a lane sum are plain sums, and a sum of extended reals may be regrouped freely, so both programs compute
  the function of Proof/Spec.lean: the reference by Proof/RefSide.lean, the kernel program by Proof/KernelValue.lean
  (over Proof/TailRun.lean for the host tail, Proof/Region1.lean for the accumulation, Proof/Entry.lean for what the
  second region finds in its arrays), its run with the result buffer named by Proof/KernelRun.lean.  The equality needs
  no finiteness of the inputs.  The three frames are the generated ones; the idealization rewrote nothing.
-/
import proofs.«130481_j79894981640368_2_alg».proof.Defs
import proofs.«130481_j79894981640368_2_alg».proof.Proof.Gen.Kernel
import proofs.«130481_j79894981640368_2_alg».proof.Proof.Gen.Kernel.Skeleton
import proofs.«130481_j79894981640368_2_alg».proof.Proof.Gen.Kernel.Launch
import proofs.«130481_j79894981640368_2_alg».proof.Proof.Gen.Kernel.Points
import proofs.«130481_j79894981640368_2_alg».proof.Proof.Gen.Kernel.Frame
import proofs.«130481_j79894981640368_2_alg».proof.Proof.Gen.KernelIdeal
import proofs.«130481_j79894981640368_2_alg».proof.Proof.Gen.KernelIdeal.Skeleton
import proofs.«130481_j79894981640368_2_alg».proof.Proof.Gen.KernelIdeal.Launch
import proofs.«130481_j79894981640368_2_alg».proof.Proof.Gen.KernelIdeal.Points
import proofs.«130481_j79894981640368_2_alg».proof.Proof.Gen.KernelIdeal.Frame
import proofs.«130481_j79894981640368_2_alg».proof.Proof.Gen.ReferenceIdeal
import proofs.«130481_j79894981640368_2_alg».proof.Proof.Gen.Pre_finite_inputs
import proofs.«130481_j79894981640368_2_alg».proof.Proof.Gen.ReferenceIdeal.Run
import proofs.«130481_j79894981640368_2_alg».proof.Proof.Gen.ReferenceIdeal.Read
import proofs.«130481_j79894981640368_2_alg».proof.Proof.KernelRun
import proofs.«130481_j79894981640368_2_alg».proof.Proof.KernelValue
import proofs.«130481_j79894981640368_2_alg».proof.Proof.RefSide
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the specification's result of the (agreeing) arguments. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Attn.KernelValue.kernel_out m ρ c), (h c).2⟩)
      (Cert.Attn.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.Attn.RefSide.ref_out, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
